-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000x1 : Shape := ⟨2, ![100000, 1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S10000x1 : Shape := ⟨2, ![10000, 1]⟩
abbrev S1x1 : Shape := ⟨2, ![1, 1]⟩
abbrev S8x12500 : Shape := ⟨2, ![8, 12500]⟩

abbrev nBuf : Space → Nat
  | .hbm => 110
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000x1, .f32⟩
  | .hbm, ⟨10, _⟩ => ⟨S100000, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x1, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x1, .f32⟩
  | .hbm, ⟨99, _⟩ => ⟨S1700000x1, .f32⟩
  | .hbm, ⟨100, _⟩ => ⟨S1700000x1, .f32⟩
  | .hbm, ⟨101, _⟩ => ⟨S_, .f32⟩
  | .hbm, ⟨102, _⟩ => ⟨S100000x1, .f32⟩
  | .hbm, ⟨103, _⟩ => ⟨S1700000x1, .i32⟩
  | .hbm, ⟨104, _⟩ => ⟨S100000x1, .f32⟩
  | .hbm, ⟨105, _⟩ => ⟨S1x1, .f32⟩
  | .hbm, ⟨106, _⟩ => ⟨S100000x1, .f32⟩
  | .hbm, ⟨107, _⟩ => ⟨S8x12500, .f32⟩
  | .hbm, ⟨108, _⟩ => ⟨S8x12500, .f32⟩
  | .hbm, ⟨109, _⟩ => ⟨S8x12500, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x1, .f32⟩
  | .local _ .vmem, ⟨23, _⟩ => ⟨S10000x1, .f32⟩
  | .local _ .vmem, ⟨24, _⟩ => ⟨S10000x1, .f32⟩
  | .local _ .vmem, ⟨25, _⟩ => ⟨S10000x1, .f32⟩
  | .local _ .vmem, ⟨26, _⟩ => ⟨S10000x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | .local _ .vmem, ⟨30, _⟩ => ⟨S8x12500, .f32⟩
  | .local _ .vmem, ⟨31, _⟩ => ⟨S8x12500, .f32⟩
  | .local _ .vmem, ⟨32, _⟩ => ⟨S8x12500, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S8x12500 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S8x12500 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S8x12500 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S100000x128_S100000x1_0_127 : S100000x128.Slices ![0, 127] S100000x1
  shapeCasts_S100000x1_S100000 : S100000x1.ShapeCasts S100000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S1_S1x1 : S1.ShapeCasts S1x1
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S8x12500 : S100000x1.ShapeCasts S8x12500
  shapeCasts_S100000_S8x12500 : S100000.ShapeCasts S8x12500
  inb_S8x12500_S8x12500_0_0 : ∀ a, (![0, 0] : Fin 2 → Nat) a + S8x12500.size a ≤ S8x12500.size a
  h_S8x12500 : 0 < S8x12500.numel
  shapeCasts_S8x12500_S8x12500 : S8x12500.ShapeCasts S8x12500
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x1_S10000x1_1_0_0_1_n_n_wf : DotDims.WF S10000x128 S128x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x1.size a ≤ S100000x1.size a
  hwx5_0 : ∀ i : grid5.Coords, EltTy.bits .f32 = 32 ∨ (Rect.block (s := S100000x1) S10000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S8x12500.size a ≤ S8x12500.size a
  hwx6_0 : ∀ i : grid6.Coords, EltTy.bits .f32 = 32 ∨ (Rect.block (s := S8x12500) S8x12500.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S8x12500.size a ≤ S8x12500.size a
  hwx6_1 : ∀ i : grid6.Coords, EltTy.bits .f32 = 32 ∨ (Rect.block (s := S8x12500) S8x12500.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S8x12500.size a ≤ S8x12500.size a
  hwx6_2 : ∀ i : grid6.Coords, EltTy.bits .f32 = 32 ∨ (Rect.block (s := S8x12500) S8x12500.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S10000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S10000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S8x12500.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v80) S8x12500.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v81) S8x12500.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S100000x1 : Shape := ⟨2, ![100000, 1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x1 : Shape := ⟨2, ![1, 1]⟩
abbrev S8x12500 : Shape := ⟨2, ![8, 12500]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S100000x1, .f32⟩
  | .hbm, ⟨10, _⟩ => ⟨S100000, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000, .i32⟩
  | .hbm, ⟨16, _⟩ => ⟨S1700000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x1, .f32⟩
  | .hbm, ⟨98, _⟩ => ⟨S_, .i32⟩
  | .hbm, ⟨99, _⟩ => ⟨S1700000, .i32⟩
  | .hbm, ⟨100, _⟩ => ⟨S1700000, .i1⟩
  | .hbm, ⟨101, _⟩ => ⟨S_, .i32⟩
  | .hbm, ⟨102, _⟩ => ⟨S1700000, .i32⟩
  | .hbm, ⟨103, _⟩ => ⟨S1700000, .i32⟩
  | .hbm, ⟨104, _⟩ => ⟨S1700000, .i32⟩
  | .hbm, ⟨105, _⟩ => ⟨S1700000x1, .i32⟩
  | .hbm, ⟨106, _⟩ => ⟨S1700000x1, .f32⟩
  | .hbm, ⟨107, _⟩ => ⟨S1700000x1, .f32⟩
  | .hbm, ⟨108, _⟩ => ⟨S1700000x1, .f32⟩
  | .hbm, ⟨109, _⟩ => ⟨S_, .f32⟩
  | .hbm, ⟨110, _⟩ => ⟨S100000x1, .f32⟩
  | .hbm, ⟨111, _⟩ => ⟨S1700000x1, .i32⟩
  | .hbm, ⟨112, _⟩ => ⟨S100000x1, .f32⟩
  | .hbm, ⟨113, _⟩ => ⟨S1x1, .f32⟩
  | .hbm, ⟨114, _⟩ => ⟨S100000x1, .f32⟩
  | .hbm, ⟨115, _⟩ => ⟨S100000x1, .f32⟩
  | .hbm, ⟨116, _⟩ => ⟨S_, .f32⟩
  | .hbm, ⟨117, _⟩ => ⟨S100000x1, .f32⟩
  | .hbm, ⟨118, _⟩ => ⟨S100000x1, .f32⟩
  | .hbm, ⟨119, _⟩ => ⟨S8x12500, .f32⟩
  | .hbm, ⟨120, _⟩ => ⟨S8x12500, .f32⟩
  | .hbm, ⟨121, _⟩ => ⟨S8x12500, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_c_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_call3_cst : Ref sig .tc := ⟨.hbm, 116, rfl⟩
abbrev main_call3_v0 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S100000x128_S100000x1_0_127 : S100000x128.Slices ![0, 127] S100000x1
  shapeCasts_S100000x1_S100000 : S100000x1.ShapeCasts S100000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S8x12500 : S100000x1.ShapeCasts S8x12500
  shapeCasts_S100000_S8x12500 : S100000.ShapeCasts S8x12500
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KernelRun.lean ====
/-
  The idealized kernel's run with its result named.

  @main is fourteen segments: seven stretches of host operations and seven kernel launches. Running them in order
  from the launch memory, every weakly fair execution terminates without a fault; the contents of every buffer that
  outlives a launch are then those of the last segment boundary. So the result buffer ends holding what that last
  boundary holds there — the output array of the seventh launch (the addition) — and each argument array is as
  launched. The later modules read that boundary back, segment by segment, to a function of the arguments.
-/
import proofs.«172430_j33784212750512_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and every argument array as launched. -/
theorem run_result : θ_run defs (onTc (τ := τ) (main (F := F))) ⟨m, fun _ => 0, ρ⟩ (fun r => ∀ c : Dev nD,
      r.2.mem ((c.tc : Thread nD τ).loc main_v81) = W14 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v81 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.Whole

end
-- ==== Proof.Keep.lean ====
/-
  What the segments of @main do NOT touch.

  A stretch of host operations writes only its operations' result buffers; a launch writes only its output window's
  array. So a buffer outside a stretch's result list holds after the stretch what it held before, and a buffer on
  which a launch has no window holds after the launch what it held before. Chained, this carries the edge lists, the
  edge weights, the saved input column and the later argument arrays from where they are made to where they are used.
  All of it holds for any float instance.
-/
import proofs.«172430_j33784212750512_1_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable {F : FTy → Type} [FloatOps F]

/-! ## The buffers each stretch of host operations writes -/

/-- The first stretch: the saved input column, the edge lists with self-loops, the degrees and their inverse roots. -/
def written0a : List (Ref sig .tc) :=
  [main_v0, main_v1, main_v2, main_v3, main_v4, main_v5, main_v6, main_v7, main_v8, main_cst, main_v9, main_cst_0,
   main_v10, main_v11, main_v12, main_cst_1, main_v13, main_v14, main_v15, main_cst_2]
/-- The outlined selection (degree positive ? inverse root : 0). -/
def written0b : List (Ref sig .tc) := [main_call0_v0, main_call0_v1, main_v16]
/-- The edge weights. -/
def written0c : List (Ref sig .tc) :=
  [main_c, main_v17, main_v18, main_c_3, main_v19, main_v20, main_v21, main_v22, main_v23, main_c_4, main_v24, main_v25,
   main_c_5, main_v26, main_v27, main_v28, main_v29, main_v30, main_v31]
/-- The first layer's aggregation and its bias row. -/
def written1 : List (Ref sig .tc) :=
  [main_c_6, main_v33, main_v34, main_c_7, main_v35, main_v36, main_v37, main_v38, main_v39, main_v40, main_v41, main_v42,
   main_cst_8, main_v43, main_v44, main_v45, main_v46]
/-- The second layer's aggregation and its bias row. -/
def written3 : List (Ref sig .tc) :=
  [main_c_9, main_v49, main_v50, main_c_10, main_v51, main_v52, main_v53, main_v54, main_v55, main_v56, main_v57, main_v58,
   main_cst_11, main_v59, main_v60, main_v61, main_v62]
/-- The third layer's aggregation and its bias entry. -/
def written5 : List (Ref sig .tc) :=
  [main_c_12, main_v65, main_v66, main_c_13, main_v67, main_v68, main_v69, main_v70, main_v71, main_v72, main_v73,
   main_cst_14, main_v74, main_v75, main_v76, main_v77]

/-- Every operation of the stretch writes inside the list: its one result buffer is a member. -/
local macro "writes_inside" : tactic => `(tactic| (
  simp only [hostOps0, hostOps0_1, hostOps0_2, hostOps1, hostOps3, hostOps5, List.Forall, StableHlo.nullary_writes,
    StableHlo.unary_writes, StableHlo.binary_writes, StableHlo.ternary_writes, StableHlo.quaternary_writes,
    StableHlo.reshape_writes, StableHlo.binaryIndexed_writes, Finset.singleton_subset_iff, List.mem_toFinset, List.mem_map]
  repeat' apply And.intro
  all_goals exact ⟨_, by decide, rfl⟩))

variable (W : Valuation τ sig (Elt F)) {b : Ref sig .tc}

theorem keep0a (hb : b ∉ written0a) : StableHlo.after (hostOps0 (F := F)) W (Proc.devRef .tc b) = W (Proc.devRef .tc b) :=
  StableHlo.after_of_writes_sub (W := written0a) (hostOps0 (F := F)) W (by writes_inside) hb
theorem keep0b (hb : b ∉ written0b) : StableHlo.after (hostOps0_1 (F := F)) W (Proc.devRef .tc b) = W (Proc.devRef .tc b) :=
  StableHlo.after_of_writes_sub (W := written0b) (hostOps0_1 (F := F)) W (by writes_inside) hb
theorem keep0c (hb : b ∉ written0c) : StableHlo.after (hostOps0_2 (F := F)) W (Proc.devRef .tc b) = W (Proc.devRef .tc b) :=
  StableHlo.after_of_writes_sub (W := written0c) (hostOps0_2 (F := F)) W (by writes_inside) hb
theorem keep1 (hb : b ∉ written1) : StableHlo.after (hostOps1 (F := F)) W (Proc.devRef .tc b) = W (Proc.devRef .tc b) :=
  StableHlo.after_of_writes_sub (W := written1) (hostOps1 (F := F)) W (by writes_inside) hb
theorem keep3 (hb : b ∉ written3) : StableHlo.after (hostOps3 (F := F)) W (Proc.devRef .tc b) = W (Proc.devRef .tc b) :=
  StableHlo.after_of_writes_sub (W := written3) (hostOps3 (F := F)) W (by writes_inside) hb
theorem keep5 (hb : b ∉ written5) : StableHlo.after (hostOps5 (F := F)) W (Proc.devRef .tc b) = W (Proc.devRef .tc b) :=
  StableHlo.after_of_writes_sub (W := written5) (hostOps5 (F := F)) W (by writes_inside) hb

/-! ## Carried from boundary to boundary -/

variable (m : (ℓ : Loc nD τ sig) → Buf (Elt F) ℓ) (ρ : Dev nD → PrngReg) (c : Dev nD)

/-- A buffer none of the operations before the first launch writes is, at that launch's entry, as launched. -/
theorem entry_as_launched (ha : b ∉ written0a) (hb : b ∉ written0b) (hc : b ∉ written0c) :
    W3 m ρ c (Proc.devRef .tc b) = m ((c : Thread nD τ).loc b) :=
  (keep0c (StableHlo.after hostOps0_1 (StableHlo.after hostOps0 (W0 m ρ c))) hc).trans
    ((keep0b (StableHlo.after hostOps0 (W0 m ρ c)) hb).trans (keep0a (W0 m ρ c) ha))

/-- From the first launch's exit through the first aggregation and the second launch. -/
theorem carry_4_6 (h1 : b ∉ written1) (hr1 : ∀ w, Pipeline.arrRef spec1 w ≠ b) :
    W6 m ρ c (Proc.devRef .tc b) = W4 m ρ c (Proc.devRef .tc b) :=
  (W6_of_ne m ρ c b hr1).trans (keep1 (W4 m ρ c) h1)
/-- … and the third launch. -/
theorem carry_4_7 (h1 : b ∉ written1) (hr1 : ∀ w, Pipeline.arrRef spec1 w ≠ b) (hr2 : ∀ w, Pipeline.arrRef spec2 w ≠ b) :
    W7 m ρ c (Proc.devRef .tc b) = W4 m ρ c (Proc.devRef .tc b) :=
  (W7_of_ne m ρ c b hr2).trans (carry_4_6 m ρ c h1 hr1)
/-- From the third launch's exit through the second aggregation and the fourth launch. -/
theorem carry_7_9 (h3 : b ∉ written3) (hr3 : ∀ w, Pipeline.arrRef spec3 w ≠ b) :
    W9 m ρ c (Proc.devRef .tc b) = W7 m ρ c (Proc.devRef .tc b) :=
  (W9_of_ne m ρ c b hr3).trans (keep3 (W7 m ρ c) h3)
/-- … and the fifth launch. -/
theorem carry_7_10 (h3 : b ∉ written3) (hr3 : ∀ w, Pipeline.arrRef spec3 w ≠ b) (hr4 : ∀ w, Pipeline.arrRef spec4 w ≠ b) :
    W10 m ρ c (Proc.devRef .tc b) = W7 m ρ c (Proc.devRef .tc b) :=
  (W10_of_ne m ρ c b hr4).trans (carry_7_9 m ρ c h3 hr3)
/-- From the fifth launch's exit through the third aggregation and the sixth launch. -/
theorem carry_10_12 (h5 : b ∉ written5) (hr5 : ∀ w, Pipeline.arrRef spec5 w ≠ b) :
    W12 m ρ c (Proc.devRef .tc b) = W10 m ρ c (Proc.devRef .tc b) :=
  (W12_of_ne m ρ c b hr5).trans (keep5 (W10 m ρ c) h5)

end Cert.KernelIdeal.Whole

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«172430_j33784212750512_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.LibRowBias.lean ====
/-
  Rows plus a bias row, then the maximum with zero — general in the number of rows R and of columns K.

  For `a` of shape [R, K] and a bias kept as a one-row array `b` of shape [1, K], `hiddenRows a b` has at (r, k) the
  value `max (a (r, k) + b (0, k)) 0`, the zero spelt as the f32 word 0x00000000 (the same word wherever it is
  printed, never evaluated). The operation acts on each row by itself: `hiddenRows_congr` says that where a block
  `a'` holds at its row `p'` what `a` holds at row `p`, and the two bias rows agree, the two results agree at those
  rows. Nothing here needs the entries to be finite.
-/
import Idealize.ShloMosaic.PureOps.Ideal.Laws
import Idealize.ShloMosaic.Lib.ValueIdx

noncomputable section

namespace Cert.Dense

open Idealize.ShloMosaic Idealize.ShloMosaic.ValueIdx

/-- `max (a (r, k) + b (0, k)) 0` at every (r, k). -/
def hiddenRows {R K : Nat} (a : (⟨2, ![R, K]⟩ : Shape).Idx → EReal) (b : (⟨2, ![1, K]⟩ : Shape).Idx → EReal) :
    (⟨2, ![R, K]⟩ : Shape).Idx → EReal :=
  fun i => max (a i + b (ix2 (0 : Fin 1) (i 1 : Fin K))) (Ideal.ofBits .f32 0x00000000#32)

/-- Read at a row and a column. -/
theorem hiddenRows_apply {R K : Nat} (a : (⟨2, ![R, K]⟩ : Shape).Idx → EReal) (b : (⟨2, ![1, K]⟩ : Shape).Idx → EReal)
    (p : Fin R) (k : Fin K) :
    hiddenRows a b (ix2 p k) = max (a (ix2 p k) + b (ix2 (0 : Fin 1) k)) (Ideal.ofBits .f32 0x00000000#32) := rfl

/-- Each row by itself: equal rows and equal bias rows give equal results at those rows. -/
theorem hiddenRows_congr {R R' K : Nat} (a : (⟨2, ![R, K]⟩ : Shape).Idx → EReal) (b : (⟨2, ![1, K]⟩ : Shape).Idx → EReal)
    (a' : (⟨2, ![R', K]⟩ : Shape).Idx → EReal) (b' : (⟨2, ![1, K]⟩ : Shape).Idx → EReal) (p : Fin R) (p' : Fin R') (k : Fin K)
    (ha : a' (ix2 p' k) = a (ix2 p k)) (hb : b' (ix2 (0 : Fin 1) k) = b (ix2 (0 : Fin 1) k)) :
    hiddenRows a' b' (ix2 p' k) = hiddenRows a b (ix2 p k) := by
  rw [hiddenRows_apply, hiddenRows_apply, ha, hb]

end Cert.Dense

end
-- ==== Proof.BlockFacts.lean ====
/-
  What each of the seven kernel bodies computes from the blocks it loads, as a pure function, on the extended reals.

  * The three matrix-product bodies round both operands to bf16 and multiply into a zero accumulator. A change of
    float format is the identity on the extended reals, and the product into zero is the entrywise sum
    `∑ k, x (r, k) · w (k, j)`: the array `rowsTimes x w`. The host's `dot_general` over the whole arrays, with the
    same contraction (second axis against first axis), is `rowsTimes` of the whole arrays.
  * The three bias bodies add a one-row bias to every row and take the maximum with zero: `hiddenRows x b`.
  * The last body adds two arrays entry by entry.

  Every statement is over variables of the literal block shapes; nothing here mentions a grid point.
-/
import proofs.«172430_j33784212750512_1_alg».proof.Proof.Gen.KernelIdeal.Skeleton
import proofs.«172430_j33784212750512_1_alg».proof.Proof.Gen.ReferenceIdeal
import proofs.«172430_j33784212750512_1_alg».proof.Proof.LibRowsTimes
import proofs.«172430_j33784212750512_1_alg».proof.Proof.LibRowsCols
import proofs.«172430_j33784212750512_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Whole

open Cert.KernelIdeal Cert.KernelIdeal.Gen
open Idealize.ShloMosaic Idealize.ShloMosaic.ValueIdx Cert.Dense

/-- A unit-stride rectangle at the origin starts at offset zero on every axis. -/
theorem hz : (![0, 0] : Fin 2 → Nat) = fun _ => 0 := funext fun a => by fin_cases a <;> rfl

/-! ## The four contraction records: rows times columns -/

/-- The kernel's [10000,128]·[128,128] record contracts the left operand's columns against the right operand's rows. -/
theorem rc_block128 : RowsCols (R := 10000) (K := 128) (N := 128) dot_S10000x128_S128x128_S10000x128_1_0_0_1_n_n :=
  ⟨rfl, rfl, fun _ _ => rfl, fun _ _ => rfl, fun _ _ => rfl, fun _ _ => rfl⟩

/-- So does its [10000,128]·[128,1] record. -/
theorem rc_block1 : RowsCols (R := 10000) (K := 128) (N := 1) dot_S10000x128_S128x1_S10000x1_1_0_0_1_n_n :=
  ⟨rfl, rfl, fun _ _ => rfl, fun _ _ => rfl, fun _ _ => rfl, fun _ _ => rfl⟩

/-- And the reference's two whole-array records. -/
theorem rc_whole128 : RowsCols (R := 100000) (K := 128) (N := 128) Cert.ReferenceIdeal.dot_S100000x128_S128x128_S100000x128_1_0_0_1_n_n :=
  ⟨rfl, rfl, fun _ _ => rfl, fun _ _ => rfl, fun _ _ => rfl, fun _ _ => rfl⟩

theorem rc_whole1 : RowsCols (R := 100000) (K := 128) (N := 1) Cert.ReferenceIdeal.dot_S100000x128_S128x1_S100000x1_1_0_0_1_n_n :=
  ⟨rfl, rfl, fun _ _ => rfl, fun _ _ => rfl, fun _ _ => rfl, fun _ _ => rfl⟩

/-! ## The matrix-product bodies -/

/-- The first product body: a block of rows times the whole [128,128] weight. -/
theorem pay_mm0 (x : Vec Ideal S10000x128 .f32) (w : Vec Ideal S128x128 .f32) :
    k0_pay1 (F := Ideal) x w = rowsTimes (M := 10000) (K := 128) (N := 128) x w := by
  funext j
  unfold k0_pay1
  exact matmul_zero_apply rc_block128 none _ _ j

/-- The second product body: the same after an identity reshape of the block. -/
theorem pay_mm2 (x : Vec Ideal S10000x128 .f32) (w : Vec Ideal S128x128 .f32) :
    k2_pay1 (F := Ideal) x w = rowsTimes (M := 10000) (K := 128) (N := 128) x w := by
  funext j
  unfold k2_pay1
  simp only [shapeCast_self]
  exact matmul_zero_apply rc_block128 none _ _ j

/-- The third product body: a block of rows times the [128,1] weight column. -/
theorem pay_mm4 (x : Vec Ideal S10000x128 .f32) (w : Vec Ideal S128x1 .f32) :
    k4_pay1 (F := Ideal) x w = rowsTimes (M := 10000) (K := 128) (N := 1) x w := by
  funext j
  unfold k4_pay1
  simp only [shapeCast_self]
  exact matmul_zero_apply rc_block1 none _ _ j

/-! ## The bias bodies -/

/-- A one-row array repeated down the rows, read at an entry: the row's entry in that column. -/
theorem bias_row_apply {R K : Nat} (b : (⟨2, ![1, K]⟩ : Shape).Idx → EReal)
    (h : (⟨2, ![1, K]⟩ : Shape).Broadcasts ⟨2, ![R, K]⟩) (j : (⟨2, ![R, K]⟩ : Shape).Idx) :
    broadcastTo (⟨2, ![R, K]⟩ : Shape) b h j = b (ix2 (0 : Fin 1) (j 1 : Fin K)) := by
  refine broadcastTo_apply b h j _ fun a => ?_
  match a with
  | ⟨0, _⟩ => exact (if_pos rfl).symm
  | ⟨1, _⟩ =>
    have hj : (j 1).val < K := (j 1).isLt
    show (j 1).val = if K = 1 then 0 else (j 1).val
    split_ifs with hK
    · omega
    · rfl

/-- The first bias body: every row of the block plus the bias row, then the maximum with zero. -/
theorem pay_br1 (x : Vec Ideal S10000x128 .f32) (b : Vec Ideal S1x128 .f32) :
    k1_pay1 (F := Ideal) x b = hiddenRows (R := 10000) (K := 128) x b := by
  funext j
  unfold k1_pay1
  simp only [shapeCast_self]
  show max (x j + broadcastTo S10000x128 b broadcasts_S1x128_S10000x128 j) (Ideal.ofBits .f32 0x00000000#32) = _
  rw [bias_row_apply]
  rfl

/-- The second bias body is the same function. -/
theorem pay_br3 (x : Vec Ideal S10000x128 .f32) (b : Vec Ideal S1x128 .f32) :
    k3_pay1 (F := Ideal) x b = hiddenRows (R := 10000) (K := 128) x b := by
  funext j
  unfold k3_pay1
  simp only [shapeCast_self]
  show max (x j + broadcastTo S10000x128 b broadcasts_S1x128_S10000x128 j) (Ideal.ofBits .f32 0x00000000#32) = _
  rw [bias_row_apply]
  rfl

/-- The third bias body: the same on a single column. -/
theorem pay_br5 (x : Vec Ideal S10000x1 .f32) (b : Vec Ideal S1x1 .f32) :
    k5_pay1 (F := Ideal) x b = hiddenRows (R := 10000) (K := 1) x b := by
  funext j
  unfold k5_pay1
  simp only [shapeCast_self]
  show max (x j + broadcastTo S10000x1 b broadcasts_S1x1_S10000x1 j) (Ideal.ofBits .f32 0x00000000#32) = _
  rw [bias_row_apply]
  rfl

/-! ## The last body -/

/-- Two [8,12500] arrays added entry by entry (the reshapes in the body are identities). -/
theorem pay_add6 (x y : Vec Ideal S8x12500 .f32) : k6_pay1 (F := Ideal) x y = addf x y := by
  unfold k6_pay1
  simp only [shapeCast_self]

end Cert.KernelIdeal.Whole

end
-- ==== Proof.RowFacts.lean ====
/-
  Two entrywise operations and their behaviour under re-indexing — general in the shapes.

  * `hiddenRows a b` (rows plus a bias row, then the maximum with zero) at an index depends on `a` at that index and on
    the bias row at that index's column only: `hiddenRows_at`.
  * `sumRows x y`, the entrywise sum, at an index depends on `x` and `y` at that index only: `sumRows_at`.

  These are what carries a block of an array to the array: a block's entry is the array's entry at the embedded index.
-/
import proofs.«172430_j33784212750512_1_alg».proof.Proof.LibRowBias
import Idealize.ShloMosaic.Lib.ValueIdx

noncomputable section

namespace Cert.Dense

open Idealize.ShloMosaic Idealize.ShloMosaic.ValueIdx

/-- Where a block `a'` holds at `j` what `a` holds at `i`, and the two bias rows agree at the two columns, the two
    results agree at `j` and `i`. -/
theorem hiddenRows_at {R R' K : Nat} (a : (⟨2, ![R, K]⟩ : Shape).Idx → EReal) (b : (⟨2, ![1, K]⟩ : Shape).Idx → EReal)
    (a' : (⟨2, ![R', K]⟩ : Shape).Idx → EReal) (b' : (⟨2, ![1, K]⟩ : Shape).Idx → EReal)
    (i : (⟨2, ![R, K]⟩ : Shape).Idx) (j : (⟨2, ![R', K]⟩ : Shape).Idx)
    (ha : a' j = a i)
    (hb : b' (ix2 (0 : Fin 1) (j 1 : Fin K)) = b (ix2 (0 : Fin 1) (i 1 : Fin K))) :
    hiddenRows a' b' j = hiddenRows a b i := by
  show max (a' j + b' (ix2 (0 : Fin 1) (j 1 : Fin K))) _ = max (a i + b (ix2 (0 : Fin 1) (i 1 : Fin K))) _
  rw [ha, hb]

/-- Two arrays of one shape added entry by entry. -/
def sumRows {S : Shape} (x y : S.Idx → EReal) : S.Idx → EReal := fun i => x i + y i

/-- Where `x'` and `y'` hold at `j` what `x` and `y` hold at `i`, the two sums agree there. -/
theorem sumRows_at {S S' : Shape} (x y : S.Idx → EReal) (x' y' : S'.Idx → EReal) (i : S.Idx) (j : S'.Idx)
    (hx : x' j = x i) (hy : y' j = y i) : sumRows x' y' j = sumRows x y i := by
  show x' j + y' j = x i + y i
  rw [hx, hy]

end Cert.Dense

end
-- ==== Proof.Region5.lean ====
/-
  The sixth launch: the single column plus the one-entry bias, then the maximum with zero; ten blocks of 10000 rows.

  Grid point t loads rows 10000·t … of the [100000,1] input and the whole [1,1] bias, and writes rows
  10000·t … of the output. The body acts on each row by itself — entry (r, 0) is max (a (r, 0) + b (0, 0)) 0 — so what
  point t writes back is block t of `hiddenRows a b` of the whole arrays, and the ten blocks cover the output.
-/
import proofs.«172430_j33784212750512_1_alg».proof.Proof.Gen.KernelIdeal.Frame
import proofs.«172430_j33784212750512_1_alg».proof.Proof.BlockFacts
import proofs.«172430_j33784212750512_1_alg».proof.Proof.RowFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The launch's block index maps, decided over its ten grid points: input rows and output rows move together with the
    point; the bias row's one block stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole array's rows plus the bias row, rectified. -/
theorem flushed5 (c : Dev nD) (t : Fin cfg5.N) :
    (dat5 V c).flushed 2 t = ((cfg5.win 2).blk t).view.read (Elt Ideal)
      (hiddenRows (R := 100000) (K := 1) (V c main_v76) (V c main_v77)) := by
  show (cfg5.win 2).cut (grid5.coords t) ((dat5 V c).after 2 t) = _
  rw [after5_2]
  unfold out5_2
  rw [View.canon_unit_zero hz]
  simp only [View.ld_unit_zero (S := S10000x1) hz, View.ld_unit_zero (S := S1x1) hz]
  obtain ⟨e00, e01, e10, e11, e20, e21⟩ := idx5 t
  funext j
  refine (congrFun (pay_br5 (iblk5 V c 0 t) (iblk5 V c 1 t)) j).trans ?_
  have h0 : ((cfg5.win 0).blk t).view.emb j = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 1 + 1 * (j 1).val = win5_2.index t (1 : Fin 2) * 1 + 1 * (j 1).val; omega
  have h1 : ((cfg5.win 1).blk t).view.emb (ix2 (0 : Fin 1) (j 1 : Fin 1))
      = ix2 (0 : Fin 1) ((((cfg5.win 2).blk t).view.emb j) 1 : Fin 1) := by
    funext a; apply Fin.ext
    match a with
    | ⟨0, _⟩ => show win5_1.index t (0 : Fin 2) * 1 + 1 * 0 = 0; omega
    | ⟨1, _⟩ => show win5_1.index t (1 : Fin 2) * 1 + 1 * (j 1).val = win5_2.index t (1 : Fin 2) * 1 + 1 * (j 1).val; omega
  show hiddenRows (R := 10000) (K := 1) (iblk5 V c 0 t) (iblk5 V c 1 t) j
    = hiddenRows (R := 100000) (K := 1) (V c main_v76) (V c main_v77) (((cfg5.win 2).blk t).view.emb j)
  refine hiddenRows_at _ _ _ _ _ j ?_ ?_
  · show V c main_v76 (((cfg5.win 0).blk t).view.emb j) = V c main_v76 (((cfg5.win 2).blk t).view.emb j)
    exact congrArg _ h0
  · show V c main_v77 (((cfg5.win 1).blk t).view.emb (ix2 (0 : Fin 1) (j 1 : Fin 1)))
      = V c main_v77 (ix2 (0 : Fin 1) ((((cfg5.win 2).blk t).view.emb j) 1 : Fin 1))
    exact congrArg _ h1

/-- An index of the output array is in point `t`'s block iff each coordinate is in the block's range on its axis. -/
theorem mem_blk5 (t : Fin cfg5.N) (i : S100000x1.Idx) :
    i ∈ ((cfg5.win 2).blk t).view.set ↔ ∀ a : Fin 2, win5_2.index t a * S10000x1.size a ≤ (i a).val ∧ (i a).val < win5_2.index t a * S10000x1.size a + S10000x1.size a := by
  show i ∈ ((View.whole main_v78).slice (win5_2.rect t)).set ↔ _
  rw [View.set_slice_whole, Rect.mem_set_unit]
  exact Iff.rfl

/-- Row `r` of the output lies in the block of point `r / 10000`. -/
theorem cover5 (i : S100000x1.Idx) : ∃ t : Fin cfg5.N, (cfg5.win 2).flush t = true ∧ i ∈ ((cfg5.win 2).blk t).view.set := by
  have hi0 : (i 0).val < 100000 := (i 0).isLt
  have hi1 : (i 1).val < 1 := (i 1).isLt
  have hN : cfg5.N = 10 := N_5
  refine ⟨⟨(i 0).val / 10000, by omega⟩, flush5_2 _, ?_⟩
  rw [mem_blk5]
  obtain ⟨-, -, -, -, e20, e21⟩ := idx5 ⟨(i 0).val / 10000, by omega⟩
  intro a
  match a with
  | ⟨0, _⟩ =>
    show win5_2.index _ (0 : Fin 2) * 10000 ≤ (i 0).val ∧ (i 0).val < win5_2.index _ (0 : Fin 2) * 10000 + 10000
    rw [e20]; show (i 0).val / 10000 * 10000 ≤ (i 0).val ∧ (i 0).val < (i 0).val / 10000 * 10000 + 10000; omega
  | ⟨1, _⟩ =>
    show win5_2.index _ (1 : Fin 2) * 1 ≤ (i 1).val ∧ (i 1).val < win5_2.index _ (1 : Fin 2) * 1 + 1
    rw [e21]; omega

/-- After the launch the output array is the input array's rows plus the bias row, rectified, as the launch found them. -/
theorem arr5 (c : Dev nD) :
    (dat5 V c).arrAt 2 cfg5.N = hiddenRows (R := 100000) (K := 1) (V c main_v76) (V c main_v77) :=
  (dat5 V c).arrAt_eq_of_cover 2 _ (fun t _ => flushed5 V c t) fun i => cover5 i

end Cert.KernelIdeal.Whole

end
-- ==== Proof.Region6.lean ====
/-
  The seventh launch: the sum of two [8,12500] arrays, one grid point.

  The one grid point loads both arrays whole and writes their entrywise sum whole; its block is the whole output, so
  after the launch the output array is the sum of the two input arrays as the launch found them.
-/
import proofs.«172430_j33784212750512_1_alg».proof.Proof.Gen.KernelIdeal.Frame
import proofs.«172430_j33784212750512_1_alg».proof.Proof.BlockFacts
import proofs.«172430_j33784212750512_1_alg».proof.Proof.RowFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The body's value is the entrywise sum of the two blocks it loads. -/
theorem pay_sum6 (x y : Vec Ideal S8x12500 .f32) : k6_pay1 (F := Ideal) x y = sumRows (S := S8x12500) x y :=
  pay_add6 x y

/-- Every window's one block sits at the origin. -/
theorem idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- What the point writes back is (the one block of) the sum. -/
theorem flushed6 (c : Dev nD) (t : Fin cfg6.N) :
    (dat6 V c).flushed 2 t = ((cfg6.win 2).blk t).view.read (Elt Ideal) (sumRows (S := S8x12500) (V c main_v79) (V c main_v80)) := by
  show (cfg6.win 2).cut (grid6.coords t) ((dat6 V c).after 2 t) = _
  rw [after6_2]
  unfold out6_2
  rw [View.canon_unit_zero hz]
  simp only [View.ld_unit_zero (S := S8x12500) hz]
  obtain ⟨e00, e01, e10, e11, e20, e21⟩ := idx6 t
  funext j
  refine (congrFun (pay_sum6 (iblk6 V c 0 t) (iblk6 V c 1 t)) j).trans ?_
  have h0 : ((cfg6.win 0).blk t).view.emb j = ((cfg6.win 2).blk t).view.emb j := by
    funext a; apply Fin.ext
    match a with
    | ⟨0, _⟩ => show win6_0.index t (0 : Fin 2) * 8 + 1 * (j 0).val = win6_2.index t (0 : Fin 2) * 8 + 1 * (j 0).val; omega
    | ⟨1, _⟩ => show win6_0.index t (1 : Fin 2) * 12500 + 1 * (j 1).val = win6_2.index t (1 : Fin 2) * 12500 + 1 * (j 1).val; omega
  have h1 : ((cfg6.win 1).blk t).view.emb j = ((cfg6.win 2).blk t).view.emb j := by
    funext a; apply Fin.ext
    match a with
    | ⟨0, _⟩ => show win6_1.index t (0 : Fin 2) * 8 + 1 * (j 0).val = win6_2.index t (0 : Fin 2) * 8 + 1 * (j 0).val; omega
    | ⟨1, _⟩ => show win6_1.index t (1 : Fin 2) * 12500 + 1 * (j 1).val = win6_2.index t (1 : Fin 2) * 12500 + 1 * (j 1).val; omega
  show sumRows (S := S8x12500) (iblk6 V c 0 t) (iblk6 V c 1 t) j
    = sumRows (S := S8x12500) (V c main_v79) (V c main_v80) (((cfg6.win 2).blk t).view.emb j)
  refine sumRows_at _ _ _ _ _ j ?_ ?_
  · show V c main_v79 (((cfg6.win 0).blk t).view.emb j) = V c main_v79 (((cfg6.win 2).blk t).view.emb j)
    exact congrArg _ h0
  · show V c main_v80 (((cfg6.win 1).blk t).view.emb j) = V c main_v80 (((cfg6.win 2).blk t).view.emb j)
    exact congrArg _ h1

/-- An index of the output array is in the point's block iff each coordinate is in the block's range on its axis. -/
theorem mem_blk6 (t : Fin cfg6.N) (i : S8x12500.Idx) :
    i ∈ ((cfg6.win 2).blk t).view.set ↔ ∀ a : Fin 2, win6_2.index t a * S8x12500.size a ≤ (i a).val ∧ (i a).val < win6_2.index t a * S8x12500.size a + S8x12500.size a := by
  show i ∈ ((View.whole main_v81).slice (win6_2.rect t)).set ↔ _
  rw [View.set_slice_whole, Rect.mem_set_unit]
  exact Iff.rfl

/-- The one block is the whole array. -/
theorem cover6 (i : S8x12500.Idx) : ∃ t : Fin cfg6.N, (cfg6.win 2).flush t = true ∧ i ∈ ((cfg6.win 2).blk t).view.set := by
  have hi0 : (i 0).val < 8 := (i 0).isLt
  have hi1 : (i 1).val < 12500 := (i 1).isLt
  have hN : cfg6.N = 1 := N_6
  refine ⟨⟨0, by omega⟩, flush6_2 _, ?_⟩
  rw [mem_blk6]
  obtain ⟨-, -, -, -, e20, e21⟩ := idx6 ⟨0, by omega⟩
  intro a
  match a with
  | ⟨0, _⟩ =>
    show win6_2.index _ (0 : Fin 2) * 8 ≤ (i 0).val ∧ (i 0).val < win6_2.index _ (0 : Fin 2) * 8 + 8
    rw [e20]; omega
  | ⟨1, _⟩ =>
    show win6_2.index _ (1 : Fin 2) * 12500 ≤ (i 1).val ∧ (i 1).val < win6_2.index _ (1 : Fin 2) * 12500 + 12500
    rw [e21]; omega

/-- After the launch the output array is the sum of the two input arrays as the launch found them. -/
theorem arr6 (c : Dev nD) : (dat6 V c).arrAt 2 cfg6.N = sumRows (S := S8x12500) (V c main_v79) (V c main_v80) :=
  (dat6 V c).arrAt_eq_of_cover 2 _ (fun t _ => flushed6 V c t) fun i => cover6 i

end Cert.KernelIdeal.Whole

end
-- ==== Proof.HostForms.lean ====
/-
  The kernel-side array functions as the reference's stages — identities between pure functions, over variables.

  The reference computes a layer as: the host's contraction of the activations with the weight; the gather / scale /
  scatter-add aggregation; plus the bias repeated down the rows; then the maximum with a zero array. The kernel's
  launches leave `rowsTimes` (the whole product), `hiddenRows` (rows plus a one-row bias, rectified) and `sumRows`.
  Here: the host's contraction IS `rowsTimes`; the bias kept as a [1,K] row by a reshape, read at (0, k), is the bias
  vector at k, which is what the reference's two broadcasts hold at (r, k); the zero array holds the zero word
  everywhere; so `hiddenRows` of the aggregation and the reshaped bias is the reference's rectified stage. No law of
  arithmetic is used: both sides are the same expression at every index.
-/
import proofs.«172430_j33784212750512_1_alg».proof.Proof.RefReadP
import proofs.«172430_j33784212750512_1_alg».proof.Proof.BlockFacts
import proofs.«172430_j33784212750512_1_alg».proof.Proof.RowFacts
import Idealize.ShloMosaic.Lib.Pipeline.Value
import Idealize.ShloMosaic.Lib.ValueIdx

noncomputable section

namespace Cert.KernelIdeal.Whole

open Idealize.ShloMosaic Idealize.ShloMosaic.ValueIdx Cert.Dense
open Cert.ReferenceIdeal.ReadP

-- the reference's argument types, as its stages take them
variable (x0 : (⟨Cert.ReferenceIdeal.S100000x128, .f32⟩ : BufTy).Contents (Elt Ideal))
  (x1 : (⟨Cert.ReferenceIdeal.S2x1600000, .i32⟩ : BufTy).Contents (Elt Ideal))
  (x3 : (⟨Cert.ReferenceIdeal.S128x128, .f32⟩ : BufTy).Contents (Elt Ideal))
  (x4 : (⟨Cert.ReferenceIdeal.S128, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))
  (x7 : (⟨Cert.ReferenceIdeal.S128x1, .f32⟩ : BufTy).Contents (Elt Ideal))
  (x8 : (⟨Cert.ReferenceIdeal.S1, .f32⟩ : BufTy).Contents (Elt Ideal))

/-! ## The three products

Each stage is unfolded one level and its operand, itself a long composed term, is replaced by a variable before
the two sides are compared: the comparison is then between two short expressions. -/

/-- x · W1 is the reference's first contraction. -/
theorem product1_stage : rowsTimes (M := 100000) (K := 128) (N := 128) x0 x3 = val_main_v32 (F := Ideal) x0 x3 := by
  unfold val_main_v32
  exact (dotGeneral_eq rc_whole128 none x0 x3).symm

/-- (first hidden layer) · W2 is the reference's second contraction. -/
theorem product2_stage :
    rowsTimes (M := 100000) (K := 128) (N := 128) (val_main_v49 (F := Ideal) x0 x1 x3 x4) x5
      = val_main_v50 (F := Ideal) x0 x1 x3 x4 x5 := by
  unfold val_main_v50
  generalize val_main_v49 (F := Ideal) x0 x1 x3 x4 = h
  exact (dotGeneral_eq rc_whole128 none h x5).symm

/-- (second hidden layer) · W3 is the reference's third contraction. -/
theorem product3_stage :
    rowsTimes (M := 100000) (K := 128) (N := 1) (val_main_v67 (F := Ideal) x0 x1 x3 x4 x5 x6) x7
      = val_main_v68 (F := Ideal) x0 x1 x3 x4 x5 x6 x7 := by
  unfold val_main_v68
  generalize val_main_v67 (F := Ideal) x0 x1 x3 x4 x5 x6 = h
  exact (dotGeneral_eq rc_whole1 none h x7).symm

/-! ## Rows plus the bias, rectified -/

/-- `hiddenRows A b` is the host's `maximum (add A B) z` whenever `B` holds, at every (r, k), the bias row's entry of
    column k, and `z` holds the zero word everywhere. -/
theorem hidden_stage {R K : Nat} (A B z : FVec Ideal (⟨2, ![R, K]⟩ : Shape) .f32) (b : (⟨2, ![1, K]⟩ : Shape).Idx → EReal)
    (hB : ∀ i, B i = b (ix2 (0 : Fin 1) (i 1 : Fin K))) (hz : ∀ i, z i = Ideal.ofBits .f32 0x00000000#32) :
    hiddenRows A b = maximumf (addf A B) z := by
  funext i
  show max (A i + b (ix2 (0 : Fin 1) (i 1 : Fin K))) _ = max (A i + B i) (z i)
  rw [hB, hz]

/-- A bias vector kept as a [1,K] row by a reshape, read at (0, k), is the vector at the index whose one coordinate is k. -/
theorem bias_row_read {K : Nat} (v : (⟨1, ![K]⟩ : Shape).Idx → EReal) (h : (⟨1, ![K]⟩ : Shape).ShapeCasts ⟨2, ![1, K]⟩) (k : Fin K)
    (k' : (⟨1, ![K]⟩ : Shape).Idx) (hk : (k' 0).val = k.val) :
    shapeCast (⟨2, ![1, K]⟩ : Shape) v h (ix2 (0 : Fin 1) k) = v k' := by
  refine shapeCast_apply v h _ k' ?_
  rewrite [Shape.rowMajor_val_one, Shape.rowMajor_val_two]
  show (k' 0).val = 0 * K + k.val
  omega

/-- First layer: the rectified rows of (aggregation + bias row) are the reference's `relu (aggregation + bias)`. -/
theorem hidden1_stage :
    hiddenRows (R := 100000) (K := 128) (val_main_v45 (F := Ideal) x0 x1 x3)
        (shapeCast Cert.KernelIdeal.S1x128 x4 Cert.KernelIdeal.Gen.shapeCasts_S128_S1x128)
      = val_main_v49 (F := Ideal) x0 x1 x3 x4 := by
  have hB : ∀ i, val_main_v47 (F := Ideal) x4 i
      = shapeCast Cert.KernelIdeal.S1x128 x4 Cert.KernelIdeal.Gen.shapeCasts_S128_S1x128 (ix2 (0 : Fin 1) (i 1 : Fin 128)) := fun i => by
    rw [val_main_v47_apply, val_main_v46_apply]
    exact (bias_row_read (K := 128) x4 _ (i 1) _ rfl).symm
  have hz : ∀ i, val_main_call1_v0 (F := Ideal) i = Ideal.ofBits .f32 0x00000000#32 := fun i => by
    rw [val_main_call1_v0_apply]; rfl
  unfold val_main_v49 val_main_v48
  generalize val_main_v45 (F := Ideal) x0 x1 x3 = A
  generalize val_main_v47 (F := Ideal) x4 = B at hB
  generalize val_main_call1_v0 (F := Ideal) = z at hz
  exact hidden_stage (R := 100000) (K := 128) A B z _ hB hz

/-- Second layer, likewise. -/
theorem hidden2_stage :
    hiddenRows (R := 100000) (K := 128) (val_main_v63 (F := Ideal) x0 x1 x3 x4 x5)
        (shapeCast Cert.KernelIdeal.S1x128 x6 Cert.KernelIdeal.Gen.shapeCasts_S128_S1x128)
      = val_main_v67 (F := Ideal) x0 x1 x3 x4 x5 x6 := by
  have hB : ∀ i, val_main_v65 (F := Ideal) x6 i
      = shapeCast Cert.KernelIdeal.S1x128 x6 Cert.KernelIdeal.Gen.shapeCasts_S128_S1x128 (ix2 (0 : Fin 1) (i 1 : Fin 128)) := fun i => by
    rw [val_main_v65_apply, val_main_v64_apply]
    exact (bias_row_read (K := 128) x6 _ (i 1) _ rfl).symm
  have hz : ∀ i, val_main_call2_v0 (F := Ideal) i = Ideal.ofBits .f32 0x00000000#32 := fun i => by
    rw [val_main_call2_v0_apply]; rfl
  unfold val_main_v67 val_main_v66
  generalize val_main_v63 (F := Ideal) x0 x1 x3 x4 x5 = A
  generalize val_main_v65 (F := Ideal) x6 = B at hB
  generalize val_main_call2_v0 (F := Ideal) = z at hz
  exact hidden_stage (R := 100000) (K := 128) A B z _ hB hz

/-- Third layer, on the single column. -/
theorem hidden3_stage :
    hiddenRows (R := 100000) (K := 1) (val_main_v80 (F := Ideal) x0 x1 x3 x4 x5 x6 x7)
        (shapeCast Cert.KernelIdeal.S1x1 x8 Cert.KernelIdeal.Gen.shapeCasts_S1_S1x1)
      = val_main_v84 (F := Ideal) x0 x1 x3 x4 x5 x6 x7 x8 := by
  have hB : ∀ i, val_main_v82 (F := Ideal) x8 i
      = shapeCast Cert.KernelIdeal.S1x1 x8 Cert.KernelIdeal.Gen.shapeCasts_S1_S1x1 (ix2 (0 : Fin 1) (i 1 : Fin 1)) := fun i => by
    rw [val_main_v82_apply, val_main_v81_apply]
    have h1 : (i 1).val < 1 := (i 1).isLt
    exact (bias_row_read (K := 1) x8 _ (i 1) _ (show 0 = (i 1).val by omega)).symm
  have hz : ∀ i, val_main_call3_v0 (F := Ideal) i = Ideal.ofBits .f32 0x00000000#32 := fun i => by
    rw [val_main_call3_v0_apply]; rfl
  unfold val_main_v84 val_main_v83
  generalize val_main_v80 (F := Ideal) x0 x1 x3 x4 x5 x6 x7 = A
  generalize val_main_v82 (F := Ideal) x8 = B at hB
  generalize val_main_call3_v0 (F := Ideal) = z at hz
  exact hidden_stage (R := 100000) (K := 1) A B z _ hB hz

/-! ## The last sum -/

/-- The entrywise sum is the host's `add`, as functions. -/
theorem sumRows_eq_addf {S : Shape} (a b : FVec Ideal S .f32) : sumRows (S := S) a b = addf a b := rfl

/-- The two reshaped arrays added entry by entry are the reference's result stage. -/
theorem sum_stage :
    sumRows (S := Cert.KernelIdeal.S8x12500)
        (shapeCast Cert.KernelIdeal.S8x12500 (val_main_v84 (F := Ideal) x0 x1 x3 x4 x5 x6 x7 x8) Cert.KernelIdeal.Gen.shapeCasts_S100000x1_S8x12500)
        (shapeCast Cert.KernelIdeal.S8x12500 (val_main_v1 (F := Ideal) x0) Cert.KernelIdeal.Gen.shapeCasts_S100000_S8x12500)
      = val_main_v87 (F := Ideal) x0 x1 x3 x4 x5 x6 x7 x8 := by
  unfold val_main_v87 val_main_v85 val_main_v86
  generalize val_main_v84 (F := Ideal) x0 x1 x3 x4 x5 x6 x7 x8 = y
  generalize val_main_v1 (F := Ideal) x0 = y1
  exact sumRows_eq_addf _ _

end Cert.KernelIdeal.Whole

end
-- ==== Proof.Region0.lean ====
/-
  The first launch: x · W1, ten blocks of 10000 rows.

  Grid point t loads rows 10000·t … 10000·t + 9999 of the [100000,128] input and the whole [128,128] weight, and
  writes rows 10000·t … of the output. Its body's value is the product of that block of rows with the weight, and rows
  of a product are products of rows, so what point t writes back is block t of the whole product. The ten blocks
  cover the output (row r lies in block r / 10000), so after the launch the output array IS the whole product
  `rowsTimes x W`, whatever the entry contents are.
-/
import proofs.«172430_j33784212750512_1_alg».proof.Proof.Gen.KernelIdeal.Frame
import proofs.«172430_j33784212750512_1_alg».proof.Proof.BlockFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The launch's block index maps, decided over its ten grid points: input rows and output rows move together with the
    point; the weight's one block stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t = ((cfg0.win 2).blk t).view.read (Elt Ideal)
      (rowsTimes (M := 100000) (K := 128) (N := 128) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx0 t
  funext j
  refine (congrFun (pay_mm0 (iblk0 V c 0 t) (iblk0 V c 1 t)) j).trans ?_
  show rowsTimes (M := 10000) (K := 128) (N := 128) (iblk0 V c 0 t) (iblk0 V c 1 t) j
    = rowsTimes (M := 100000) (K := 128) (N := 128) (V c main_arg0) (V c main_arg3) (((cfg0.win 2).blk t).view.emb j)
  refine rowsTimes_of_rows _ _ _ _ j _ (fun k => ?_) (fun k => ?_)
  · show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg3 (((cfg0.win 1).blk t).view.emb (ix2 k (j 1))) = V c main_arg3 (ix2 k ((((cfg0.win 2).blk t).view.emb j) 1))
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Row `r` of the output lies in the block of point `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by omega⟩, flush0_2 _, ?_⟩
  rw [mem_blk0]
  obtain ⟨-, -, -, -, e20, e21⟩ := idx0 ⟨(i 0).val / 10000, by omega⟩
  intro a
  match a with
  | ⟨0, _⟩ =>
    show win0_2.index _ (0 : Fin 2) * 10000 ≤ (i 0).val ∧ (i 0).val < win0_2.index _ (0 : Fin 2) * 10000 + 10000
    rw [e20]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e21]; omega

/-- After the launch the output array is the whole product of the input array and the weight as the launch found them. -/
theorem arr0 (c : Dev nD) :
    (dat0 V c).arrAt 2 cfg0.N = rowsTimes (M := 100000) (K := 128) (N := 128) (V c main_arg0) (V c main_arg3) :=
  (dat0 V c).arrAt_eq_of_cover 2 _ (fun t _ => flushed0 V c t) fun i => cover0 i

end Cert.KernelIdeal.Whole

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.LibRefTransport.lean ====
/-
  Reading or writing a buffer through a typed reference whose value type is the buffer's own type is the identity.

  The operations of an outlined function (`func.call`) reach their operands through typed references, a transport along the
  equation "the buffer's type is the value's type". Where a value passes between such an operation and a plain one, one
  transport is left over after the written-then-read pairs cancel. For a literal buffer the two types are the same type, so
  that transport is the identity: `ofBuf_self`, `toBuf_self`. General in the reference signature and the element values.
-/
import Idealize.ShloMosaic.Lib.StableHlo.Run

namespace Cert.HostLine

open Idealize.ShloMosaic Idealize.ShloMosaic.StableHlo

variable {sig : RefSig} {Val : EltTy → Type}

/-- Reading a buffer's contents through a typed reference of the buffer's own type is the identity. -/
theorem ofBuf_self (r : Ref sig .tc) (h1 : r.ty = r.ty) (h2 : r.space ≠ .host) (h3 : r.isScoped = false)
    (v : r.ty.Contents Val) : (TRef.of (T := r.ty) r h1 h2 h3).ofBuf v = v := rfl

/-- Writing a value into a buffer through a typed reference of the buffer's own type is the identity. -/
theorem toBuf_self (r : Ref sig .tc) (h1 : r.ty = r.ty) (h2 : r.space ≠ .host) (h3 : r.isScoped = false)
    (v : r.ty.Contents Val) : (TRef.of (T := r.ty) r h1 h2 h3).toBuf v = v := rfl

end Cert.HostLine
-- ==== Proof.BoundaryA.lean ====
/-
  The segment boundaries, read back: the host operations before the first launch, and the first launch.

  The contents of the TensorCore's buffers at each boundary between @main's segments are a fold from the launch memory.
  Read at the buffers later segments use, the fold after the 42 host operations before the first launch is: the
  reference's own stages for the last input column (kept for the final sum), the edge sources and targets with the
  self-loops appended, and the edge weights; and each argument array as launched, since no operation writes one. The
  operations are the reference's, one for one, so each reading is the operations' composed term, which IS the stage.
  After the first launch the output array is the whole product x · W1, the reference's first contraction, and every
  buffer the launch has no window on is as before.
-/
import proofs.«172430_j33784212750512_1_alg».proof.Proof.Gen.KernelIdeal.Frame
import proofs.«172430_j33784212750512_1_alg».proof.Proof.Keep
import proofs.«172430_j33784212750512_1_alg».proof.Proof.Region0
import proofs.«172430_j33784212750512_1_alg».proof.Proof.HostForms
import proofs.«172430_j33784212750512_1_alg».proof.Proof.LibHostStretches
import proofs.«172430_j33784212750512_1_alg».proof.Proof.LibRefTransport
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo Idealize.SL.Sem Cert.Dense
open Cert.ReferenceIdeal.ReadP

variable (m : (ℓ : Loc nD τ sig) → Buf (Elt Ideal) ℓ) (ρ : Dev nD → PrngReg)

/-! ## The argument arrays as launched -/

abbrev A0 (c : Dev nD) := m ((c : Thread nD τ).loc main_arg0)
abbrev A1 (c : Dev nD) := m ((c : Thread nD τ).loc main_arg1)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)
abbrev A8 (c : Dev nD) := m ((c : Thread nD τ).loc main_arg8)

/-! ## Before the first launch

The 42 host operations come in three stretches: the edge lists, the degrees and their inverse roots; the outlined
selection (degree positive ? inverse root : 0); the edge weights. They are read one stretch at a time, each over what the stretch before it left. -/

/-- The contents after the first nine host operations: the saved input column and the two edge lists are complete. -/
abbrev Wa (c : Dev nD) : Valuation τ sig (Elt Ideal) := StableHlo.after ((hostOps0 (F := Ideal)).take 9) (W0 m ρ c)

/-- The first stretch is its first nine operations, then the other eleven. -/
theorem W1_split (c : Dev nD) : W1 m ρ c = StableHlo.after ((hostOps0 (F := Ideal)).drop 9) (Wa m ρ c) := by
  exact Cert.HostLine.after_split 9 _ _

/-- Reads a buffer through the first nine operations, down to the launch memory. -/
local macro "read_first_nine" : tactic => `(tactic| (
  simp only [hostOps0, List.take_succ_cons, List.take_zero]
  after_results_simp <;> rfl))

-- there the saved column and the two edge lists already hold the reference's stages
theorem Wa_v1 (c : Dev nD) : Wa m ρ c (Proc.devRef .tc main_v1) = val_main_v1 (F := Ideal) (A0 m c) := by
  show StableHlo.after ((hostOps0 (F := Ideal)).take 9) (W0 m ρ c) (Proc.devRef .tc main_v1) = _
  read_first_nine
theorem Wa_v7 (c : Dev nD) : Wa m ρ c (Proc.devRef .tc main_v7) = val_main_v7 (F := Ideal) (A1 m c) := by
  show StableHlo.after ((hostOps0 (F := Ideal)).take 9) (W0 m ρ c) (Proc.devRef .tc main_v7) = _
  read_first_nine
theorem Wa_v8 (c : Dev nD) : Wa m ρ c (Proc.devRef .tc main_v8) = val_main_v8 (F := Ideal) (A1 m c) := by
  show StableHlo.after ((hostOps0 (F := Ideal)).take 9) (W0 m ρ c) (Proc.devRef .tc main_v8) = _
  read_first_nine

/-- Reads a buffer through the other eleven operations of the first stretch, over contents `X` known only where stated. -/
local macro "read_other_eleven" : tactic => `(tactic| (
  simp only [hostOps0, List.drop_succ_cons, List.drop_zero]
  after_results_simp))

/-- The last input column, kept as a vector for the final sum. -/
theorem W1_v1 (c : Dev nD) : W1 m ρ c (Proc.devRef .tc main_v1) = val_main_v1 (F := Ideal) (A0 m c) := by
  have e := Wa_v1 m ρ c
  rw [W1_split m ρ c]
  generalize Wa m ρ c = X at e ⊢
  read_other_eleven
  exact e
/-- The edge sources with the self-loops appended. -/
theorem W1_v7 (c : Dev nD) : W1 m ρ c (Proc.devRef .tc main_v7) = val_main_v7 (F := Ideal) (A1 m c) := by
  have e := Wa_v7 m ρ c
  rw [W1_split m ρ c]
  generalize Wa m ρ c = X at e ⊢
  read_other_eleven
  exact e
/-- The edge targets with the self-loops appended. -/
theorem W1_v8 (c : Dev nD) : W1 m ρ c (Proc.devRef .tc main_v8) = val_main_v8 (F := Ideal) (A1 m c) := by
  have e := Wa_v8 m ρ c
  rw [W1_split m ρ c]
  generalize Wa m ρ c = X at e ⊢
  read_other_eleven
  exact e
/-- Where the degree (the number of edges into a node, its self-loop included) is positive: ones scatter-added at the
    edge targets, compared with zero. The edge targets are a variable when the two sides are compared. -/
theorem W1_v14 (c : Dev nD) : W1 m ρ c (Proc.devRef .tc main_v14) = val_main_v14 (F := Ideal) (A1 m c) := by
  have e := Wa_v8 m ρ c
  rw [W1_split m ρ c]
  generalize Wa m ρ c = X at e ⊢
  read_other_eleven
  rw [e]
  simp only [val_main_v14, val_main_v13, val_main_cst_1, val_main_v12, val_main_v11, val_main_v10, val_main_cst_0, val_main_v9,
    val_main_cst]
  generalize val_main_v8 (F := Ideal) (A1 m c) = d
  rfl
/-- The inverse square root of the degree. -/
theorem W1_v15 (c : Dev nD) : W1 m ρ c (Proc.devRef .tc main_v15) = val_main_v15 (F := Ideal) (A1 m c) := by
  have e := Wa_v8 m ρ c
  rw [W1_split m ρ c]
  generalize Wa m ρ c = X at e ⊢
  read_other_eleven
  rw [e]
  simp only [val_main_v15, val_main_v12, val_main_v11, val_main_v10, val_main_cst_0, val_main_v9, val_main_cst]
  generalize val_main_v8 (F := Ideal) (A1 m c) = d
  rfl
/-- The zero the selection falls back to. -/
theorem W1_cst_2 (c : Dev nD) : W1 m ρ c (Proc.devRef .tc main_cst_2) = val_main_cst_2 (F := Ideal) := by
  rw [W1_split m ρ c]
  generalize Wa m ρ c = X
  read_other_eleven
  rfl

/-- The second stretch writes none of the saved column and the two edge lists. -/
theorem W2_v1 (c : Dev nD) : W2 m ρ c (Proc.devRef .tc main_v1) = val_main_v1 (F := Ideal) (A0 m c) :=
  (keep0b (W1 m ρ c) (b := main_v1) (by decide)).trans (W1_v1 m ρ c)
theorem W2_v7 (c : Dev nD) : W2 m ρ c (Proc.devRef .tc main_v7) = val_main_v7 (F := Ideal) (A1 m c) :=
  (keep0b (W1 m ρ c) (b := main_v7) (by decide)).trans (W1_v7 m ρ c)
theorem W2_v8 (c : Dev nD) : W2 m ρ c (Proc.devRef .tc main_v8) = val_main_v8 (F := Ideal) (A1 m c) :=
  (keep0b (W1 m ρ c) (b := main_v8) (by decide)).trans (W1_v8 m ρ c)

/-- The inverse square roots of the degrees, zero where the degree is not positive: the outlined selection, read with
    the contents before it a variable known at the three buffers it reads. -/
theorem W2_v16 (c : Dev nD) : W2 m ρ c (Proc.devRef .tc main_v16) = val_main_v16 (F := Ideal) (A1 m c) := by
  have e14 := W1_v14 m ρ c
  have e15 := W1_v15 m ρ c
  have ez := W1_cst_2 m ρ c
  show StableHlo.after hostOps0_1 (W1 m ρ c) (Proc.devRef .tc main_v16) = _
  generalize W1 m ρ c = X at e14 e15 ez ⊢
  dsimp only [hostOps0_1]
  after_results_simp
  rw [e14, e15, ez]
  simp only [val_main_v16, val_main_call0_v1, val_main_call0_v0]
  generalize val_main_v14 (F := Ideal) (A1 m c) = pos
  generalize val_main_v15 (F := Ideal) (A1 m c) = r
  -- the call's operations reach their operands through typed references: a value written and read back is the
  -- value, and the transports left at the call's own operands and result are identities
  simp only [Cert.HostLine.ofBuf_toBuf]
  erw [Cert.HostLine.toBuf_self main_v16, Cert.HostLine.ofBuf_self main_v14, Cert.HostLine.ofBuf_self main_v15,
    Cert.HostLine.ofBuf_self main_cst_2]

/-- The third stretch writes none of the saved column and the two edge lists. -/
theorem W3_v1 (c : Dev nD) : W3 m ρ c (Proc.devRef .tc main_v1) = val_main_v1 (F := Ideal) (A0 m c) :=
  (keep0c (W2 m ρ c) (b := main_v1) (by decide)).trans (W2_v1 m ρ c)
theorem W3_v7 (c : Dev nD) : W3 m ρ c (Proc.devRef .tc main_v7) = val_main_v7 (F := Ideal) (A1 m c) :=
  (keep0c (W2 m ρ c) (b := main_v7) (by decide)).trans (W2_v7 m ρ c)
theorem W3_v8 (c : Dev nD) : W3 m ρ c (Proc.devRef .tc main_v8) = val_main_v8 (F := Ideal) (A1 m c) :=
  (keep0c (W2 m ρ c) (b := main_v8) (by decide)).trans (W2_v8 m ρ c)

/-- The edge weights: the inverse roots gathered at the sources and at the targets, multiplied. The contents before the
    third stretch are a variable here, known only at the three buffers the stretch reads; the stage's definition is
    opened one operation at a time and those three operands are replaced by variables before the two sides are compared. -/
theorem W3_v31 (c : Dev nD) : W3 m ρ c (Proc.devRef .tc main_v31) = val_main_v31 (F := Ideal) (A1 m c) := by
  have e16 := W2_v16 m ρ c
  have e7 := W2_v7 m ρ c
  have e8 := W2_v8 m ρ c
  show StableHlo.after hostOps0_2 (W2 m ρ c) (Proc.devRef .tc main_v31) = _
  generalize W2 m ρ c = X at e16 e7 e8 ⊢
  dsimp only [hostOps0_2]
  after_results_simp
  rw [e16, e7, e8]
  simp only [val_main_v31, val_main_v30, val_main_v29, val_main_v28, val_main_v27, val_main_v26, val_main_c_5, val_main_v25,
    val_main_v24, val_main_c_4, val_main_v23, val_main_v22, val_main_v21, val_main_v20, val_main_v19, val_main_c_3,
    val_main_v18, val_main_v17, val_main_c]
  generalize val_main_v16 (F := Ideal) (A1 m c) = dinv
  generalize val_main_v7 (F := Ideal) (A1 m c) = s
  generalize val_main_v8 (F := Ideal) (A1 m c) = d
  rfl

/-! ## After the first launch -/

/-- The first launch leaves the whole product x · W1 in its output array: the reference's first contraction. -/
theorem W4_v32 (c : Dev nD) : W4 m ρ c (Proc.devRef .tc main_v32) = val_main_v32 (F := Ideal) (A0 m c) (A3 m c) := by
  refine (W4_arr m ρ c 2).trans ?_
  refine (arr0 (V3 m ρ) c).trans ?_
  show rowsTimes (M := 100000) (K := 128) (N := 128) (W3 m ρ c (Proc.devRef .tc main_arg0)) (W3 m ρ c (Proc.devRef .tc main_arg3)) = _
  rw [entry_as_launched m ρ c (b := main_arg0) (by decide) (by decide) (by decide),
    entry_as_launched m ρ c (b := main_arg3) (by decide) (by decide) (by decide)]
  exact product1_stage _ _

/-- The edge sources, the edge targets and the edge weights are still there after the first launch. -/
theorem W4_v7 (c : Dev nD) : W4 m ρ c (Proc.devRef .tc main_v7) = val_main_v7 (F := Ideal) (A1 m c) :=
  (W4_of_ne m ρ c main_v7 (by decide)).trans (W3_v7 m ρ c)
theorem W4_v8 (c : Dev nD) : W4 m ρ c (Proc.devRef .tc main_v8) = val_main_v8 (F := Ideal) (A1 m c) :=
  (W4_of_ne m ρ c main_v8 (by decide)).trans (W3_v8 m ρ c)
theorem W4_v31 (c : Dev nD) : W4 m ρ c (Proc.devRef .tc main_v31) = val_main_v31 (F := Ideal) (A1 m c) :=
  (W4_of_ne m ρ c main_v31 (by decide)).trans (W3_v31 m ρ c)
/-- So is the saved input column. -/
theorem W4_v1 (c : Dev nD) : W4 m ρ c (Proc.devRef .tc main_v1) = val_main_v1 (F := Ideal) (A0 m c) :=
  (W4_of_ne m ρ c main_v1 (by decide)).trans (W3_v1 m ρ c)

/-- An argument array on which the first launch has no window, and which no host operation before it writes, is as
    launched after the first launch. -/
theorem W4_as_launched (c : Dev nD) {b : Ref sig .tc} (hr : ∀ w, Pipeline.arrRef spec0 w ≠ b)
    (ha : b ∉ written0a) (hb : b ∉ written0b) (hc : b ∉ written0c) :
    W4 m ρ c (Proc.devRef .tc b) = m ((c : Thread nD τ).loc b) :=
  (W4_of_ne m ρ c b hr).trans (entry_as_launched m ρ c ha hb hc)

end Cert.KernelIdeal.Whole

end
-- ==== Proof.Region1.lean ====
/-
  The second launch: rows plus the bias row, then the maximum with zero; ten blocks of 10000 rows.

  Grid point t loads rows 10000·t … of the [100000,128] input and the whole [1,128] bias row, and writes rows
  10000·t … of the output. The body acts on each row by itself — entry (r, k) is max (a (r, k) + b (0, k)) 0 — so what
  point t writes back is block t of `hiddenRows a b` of the whole arrays, and the ten blocks cover the output.
-/
import proofs.«172430_j33784212750512_1_alg».proof.Proof.Gen.KernelIdeal.Frame
import proofs.«172430_j33784212750512_1_alg».proof.Proof.BlockFacts
import proofs.«172430_j33784212750512_1_alg».proof.Proof.RowFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The launch's block index maps, decided over its ten grid points: input rows and output rows move together with the
    point; the bias row's one block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole array's rows plus the bias row, rectified. -/
theorem flushed1 (c : Dev nD) (t : Fin cfg1.N) :
    (dat1 V c).flushed 2 t = ((cfg1.win 2).blk t).view.read (Elt Ideal)
      (hiddenRows (R := 100000) (K := 128) (V c main_v45) (V c main_v46)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e00, e01, e10, e11, e20, e21⟩ := idx1 t
  funext j
  refine (congrFun (pay_br1 (iblk1 V c 0 t) (iblk1 V c 1 t)) j).trans ?_
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1 : Fin 128))
      = ix2 (0 : Fin 1) ((((cfg1.win 2).blk t).view.emb j) 1 : Fin 128) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  show hiddenRows (R := 10000) (K := 128) (iblk1 V c 0 t) (iblk1 V c 1 t) j
    = hiddenRows (R := 100000) (K := 128) (V c main_v45) (V c main_v46) (((cfg1.win 2).blk t).view.emb j)
  refine hiddenRows_at _ _ _ _ _ j ?_ ?_
  · show V c main_v45 (((cfg1.win 0).blk t).view.emb j) = V c main_v45 (((cfg1.win 2).blk t).view.emb j)
    exact congrArg _ h0
  · show V c main_v46 (((cfg1.win 1).blk t).view.emb (ix2 (0 : Fin 1) (j 1 : Fin 128)))
      = V c main_v46 (ix2 (0 : Fin 1) ((((cfg1.win 2).blk t).view.emb j) 1 : Fin 128))
    exact congrArg _ h1

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Row `r` of the output lies in the block of point `r / 10000`. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  refine ⟨⟨(i 0).val / 10000, by omega⟩, flush1_2 _, ?_⟩
  rw [mem_blk1]
  obtain ⟨-, -, -, -, e20, e21⟩ := idx1 ⟨(i 0).val / 10000, by omega⟩
  intro a
  match a with
  | ⟨0, _⟩ =>
    show win1_2.index _ (0 : Fin 2) * 10000 ≤ (i 0).val ∧ (i 0).val < win1_2.index _ (0 : Fin 2) * 10000 + 10000
    rw [e20]; show (i 0).val / 10000 * 10000 ≤ (i 0).val ∧ (i 0).val < (i 0).val / 10000 * 10000 + 10000; omega
  | ⟨1, _⟩ =>
    show win1_2.index _ (1 : Fin 2) * 128 ≤ (i 1).val ∧ (i 1).val < win1_2.index _ (1 : Fin 2) * 128 + 128
    rw [e21]; omega

/-- After the launch the output array is the input array's rows plus the bias row, rectified, as the launch found them. -/
theorem arr1 (c : Dev nD) :
    (dat1 V c).arrAt 2 cfg1.N = hiddenRows (R := 100000) (K := 128) (V c main_v45) (V c main_v46) :=
  (dat1 V c).arrAt_eq_of_cover 2 _ (fun t _ => flushed1 V c t) fun i => cover1 i

end Cert.KernelIdeal.Whole

end
-- ==== Proof.Region2.lean ====
/-
  The third launch: h · W2, ten blocks of 10000 rows.

  Grid point t loads rows 10000·t … 10000·t + 9999 of the [100000,128] input and the whole [128,128] weight, and
  writes rows 10000·t … of the output. Its body's value is the product of that block of rows with the weight, and rows
  of a product are products of rows, so what point t writes back is block t of the whole product. The ten blocks
  cover the output (row r lies in block r / 10000), so after the launch the output array IS the whole product
  `rowsTimes x W`, whatever the entry contents are.
-/
import proofs.«172430_j33784212750512_1_alg».proof.Proof.Gen.KernelIdeal.Frame
import proofs.«172430_j33784212750512_1_alg».proof.Proof.BlockFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The launch's block index maps, decided over its ten grid points: input rows and output rows move together with the
    point; the weight's one block stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product. -/
theorem flushed2 (c : Dev nD) (t : Fin cfg2.N) :
    (dat2 V c).flushed 2 t = ((cfg2.win 2).blk t).view.read (Elt Ideal)
      (rowsTimes (M := 100000) (K := 128) (N := 128) (V c main_v47) (V c main_arg5)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e00, e01, e10, e11, e20, e21⟩ := idx2 t
  funext j
  refine (congrFun (pay_mm2 (iblk2 V c 0 t) (iblk2 V c 1 t)) j).trans ?_
  show rowsTimes (M := 10000) (K := 128) (N := 128) (iblk2 V c 0 t) (iblk2 V c 1 t) j
    = rowsTimes (M := 100000) (K := 128) (N := 128) (V c main_v47) (V c main_arg5) (((cfg2.win 2).blk t).view.emb j)
  refine rowsTimes_of_rows _ _ _ _ j _ (fun k => ?_) (fun k => ?_)
  · show V c main_v47 (((cfg2.win 0).blk t).view.emb (ix2 (j 0) k)) = V c main_v47 (ix2 ((((cfg2.win 2).blk t).view.emb j) 0) k)
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  · show V c main_arg5 (((cfg2.win 1).blk t).view.emb (ix2 k (j 1))) = V c main_arg5 (ix2 k ((((cfg2.win 2).blk t).view.emb j) 1))
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- Row `r` of the output lies in the block of point `r / 10000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  refine ⟨⟨(i 0).val / 10000, by omega⟩, flush2_2 _, ?_⟩
  rw [mem_blk2]
  obtain ⟨-, -, -, -, e20, e21⟩ := idx2 ⟨(i 0).val / 10000, by omega⟩
  intro a
  match a with
  | ⟨0, _⟩ =>
    show win2_2.index _ (0 : Fin 2) * 10000 ≤ (i 0).val ∧ (i 0).val < win2_2.index _ (0 : Fin 2) * 10000 + 10000
    rw [e20]; show (i 0).val / 10000 * 10000 ≤ (i 0).val ∧ (i 0).val < (i 0).val / 10000 * 10000 + 10000; omega
  | ⟨1, _⟩ =>
    show win2_2.index _ (1 : Fin 2) * 128 ≤ (i 1).val ∧ (i 1).val < win2_2.index _ (1 : Fin 2) * 128 + 128
    rw [e21]; omega

/-- After the launch the output array is the whole product of the input array and the weight as the launch found them. -/
theorem arr2 (c : Dev nD) :
    (dat2 V c).arrAt 2 cfg2.N = rowsTimes (M := 100000) (K := 128) (N := 128) (V c main_v47) (V c main_arg5) :=
  (dat2 V c).arrAt_eq_of_cover 2 _ (fun t _ => flushed2 V c t) fun i => cover2 i

end Cert.KernelIdeal.Whole

end
-- ==== Proof.BoundaryB.lean ====
/-
  The segment boundaries, read back: the first layer's aggregation, its bias launch, and the second product.

  After the first launch the host gathers the product's rows at the edge sources, scales them by the edge weights
  and scatter-adds them at the edge targets: the reference's operations, one for one, on the same product, sources,
  targets and weights — so the aggregated array is the reference's stage. The bias vector is kept as a [1,128] row.
  The second launch leaves rows plus that bias row, rectified: the reference's first hidden layer. The third launch
  leaves its product with W2: the reference's second contraction. What no segment in between writes is carried along.
-/
import proofs.«172430_j33784212750512_1_alg».proof.Proof.Gen.KernelIdeal.Frame
import proofs.«172430_j33784212750512_1_alg».proof.Proof.Keep
import proofs.«172430_j33784212750512_1_alg».proof.Proof.Region1
import proofs.«172430_j33784212750512_1_alg».proof.Proof.Region2
import proofs.«172430_j33784212750512_1_alg».proof.Proof.HostForms
import proofs.«172430_j33784212750512_1_alg».proof.Proof.BoundaryA
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo Idealize.SL.Sem Cert.Dense
open Cert.ReferenceIdeal.ReadP

variable (m : (ℓ : Loc nD τ sig) → Buf (Elt Ideal) ℓ) (ρ : Dev nD → PrngReg)

/-! ## After the host operations between the first and the second launch -/

/-- The aggregated first product: gather at the sources, scale by the edge weights, scatter-add at the targets.
    The reading of the host operations is the reference's stage with the same four operands; the stage's definition
    is opened one operation at a time and the four operands are replaced by variables before the two sides are
    compared, so that the comparison never looks inside a gather or a scatter. -/
theorem W5_v45 (c : Dev nD) : W5 m ρ c (Proc.devRef .tc main_v45) = val_main_v45 (F := Ideal) (A0 m c) (A1 m c) (A3 m c) := by
  show StableHlo.after hostOps1 (W4 m ρ c) (Proc.devRef .tc main_v45) = _
  dsimp only [hostOps1]
  after_results_simp
  rw [W4_v32 m ρ c, W4_v7 m ρ c, W4_v8 m ρ c, W4_v31 m ρ c]
  simp only [val_main_v45, val_main_v44, val_main_v43, val_main_cst_8, val_main_v42, val_main_v41, val_main_v40, val_main_v39,
    val_main_v38, val_main_v37, val_main_v36, val_main_v35, val_main_c_7, val_main_v34, val_main_v33, val_main_c_6]
  generalize val_main_v32 (F := Ideal) (A0 m c) (A3 m c) = h
  generalize val_main_v7 (F := Ideal) (A1 m c) = s
  generalize val_main_v8 (F := Ideal) (A1 m c) = d
  generalize val_main_v31 (F := Ideal) (A1 m c) = w
  rfl

/-- The first bias vector kept as a [1,128] row. -/
theorem W5_v46 (c : Dev nD) : W5 m ρ c (Proc.devRef .tc main_v46) = shapeCast S1x128 (A4 m c) shapeCasts_S128_S1x128 := by
  show StableHlo.after hostOps1 (W4 m ρ c) (Proc.devRef .tc main_v46) = _
  dsimp only [hostOps1]
  after_results_simp
  rw [W4_as_launched m ρ c (b := main_arg4) (by decide) (by decide) (by decide) (by decide)]
  rfl

/-! ## After the second launch -/

/-- Rows plus the bias row, rectified: the reference's first hidden layer. -/
theorem W6_v47 (c : Dev nD) :
    W6 m ρ c (Proc.devRef .tc main_v47) = val_main_v49 (F := Ideal) (A0 m c) (A1 m c) (A3 m c) (A4 m c) := by
  refine (W6_arr m ρ c 2).trans ?_
  refine (arr1 (V5 m ρ) c).trans ?_
  show hiddenRows (R := 100000) (K := 128) (W5 m ρ c (Proc.devRef .tc main_v45)) (W5 m ρ c (Proc.devRef .tc main_v46)) = _
  rw [W5_v45 m ρ c, W5_v46 m ρ c]
  exact hidden1_stage _ _ _ _

/-- The second weight is as launched when the third launch reads it. -/
theorem W6_arg5 (c : Dev nD) : W6 m ρ c (Proc.devRef .tc main_arg5) = A5 m c :=
  (carry_4_6 m ρ c (b := main_arg5) (by decide) (by decide)).trans
    (W4_as_launched m ρ c (b := main_arg5) (by decide) (by decide) (by decide) (by decide))

/-! ## After the third launch -/

/-- The first hidden layer times W2: the reference's second contraction. -/
theorem W7_v48 (c : Dev nD) :
    W7 m ρ c (Proc.devRef .tc main_v48) = val_main_v50 (F := Ideal) (A0 m c) (A1 m c) (A3 m c) (A4 m c) (A5 m c) := by
  refine (W7_arr m ρ c 2).trans ?_
  refine (arr2 (V6 m ρ) c).trans ?_
  show rowsTimes (M := 100000) (K := 128) (N := 128) (W6 m ρ c (Proc.devRef .tc main_v47)) (W6 m ρ c (Proc.devRef .tc main_arg5)) = _
  rw [W6_v47 m ρ c, W6_arg5 m ρ c]
  exact product2_stage _ _ _ _ _

/-- The edge sources, the edge targets, the edge weights and the saved input column, carried to the third launch's exit. -/
theorem W7_v7 (c : Dev nD) : W7 m ρ c (Proc.devRef .tc main_v7) = val_main_v7 (F := Ideal) (A1 m c) :=
  (carry_4_7 m ρ c (b := main_v7) (by decide) (by decide) (by decide)).trans (W4_v7 m ρ c)
theorem W7_v8 (c : Dev nD) : W7 m ρ c (Proc.devRef .tc main_v8) = val_main_v8 (F := Ideal) (A1 m c) :=
  (carry_4_7 m ρ c (b := main_v8) (by decide) (by decide) (by decide)).trans (W4_v8 m ρ c)
theorem W7_v31 (c : Dev nD) : W7 m ρ c (Proc.devRef .tc main_v31) = val_main_v31 (F := Ideal) (A1 m c) :=
  (carry_4_7 m ρ c (b := main_v31) (by decide) (by decide) (by decide)).trans (W4_v31 m ρ c)
theorem W7_v1 (c : Dev nD) : W7 m ρ c (Proc.devRef .tc main_v1) = val_main_v1 (F := Ideal) (A0 m c) :=
  (carry_4_7 m ρ c (b := main_v1) (by decide) (by decide) (by decide)).trans (W4_v1 m ρ c)

/-- An argument array that nothing up to the third launch's exit writes or has an output window on is as launched there. -/
theorem W7_as_launched (c : Dev nD) {b : Ref sig .tc} (hr0 : ∀ w, Pipeline.arrRef spec0 w ≠ b)
    (ha : b ∉ written0a) (hb : b ∉ written0b) (hc : b ∉ written0c) (h1 : b ∉ written1)
    (hr1 : ∀ w, Pipeline.arrRef spec1 w ≠ b) (hr2 : ∀ w, Pipeline.arrRef spec2 w ≠ b) :
    W7 m ρ c (Proc.devRef .tc b) = m ((c : Thread nD τ).loc b) :=
  (carry_4_7 m ρ c h1 hr1 hr2).trans (W4_as_launched m ρ c hr0 ha hb hc)

end Cert.KernelIdeal.Whole

end
-- ==== Proof.Region3.lean ====
/-
  The fourth launch: rows plus the second bias row, then the maximum with zero; ten blocks of 10000 rows.

  Grid point t loads rows 10000·t … of the [100000,128] input and the whole [1,128] bias row, and writes rows
  10000·t … of the output. The body acts on each row by itself — entry (r, k) is max (a (r, k) + b (0, k)) 0 — so what
  point t writes back is block t of `hiddenRows a b` of the whole arrays, and the ten blocks cover the output.
-/
import proofs.«172430_j33784212750512_1_alg».proof.Proof.Gen.KernelIdeal.Frame
import proofs.«172430_j33784212750512_1_alg».proof.Proof.BlockFacts
import proofs.«172430_j33784212750512_1_alg».proof.Proof.RowFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The launch's block index maps, decided over its ten grid points: input rows and output rows move together with the
    point; the bias row's one block stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole array's rows plus the bias row, rectified. -/
theorem flushed3 (c : Dev nD) (t : Fin cfg3.N) :
    (dat3 V c).flushed 2 t = ((cfg3.win 2).blk t).view.read (Elt Ideal)
      (hiddenRows (R := 100000) (K := 128) (V c main_v61) (V c main_v62)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨e00, e01, e10, e11, e20, e21⟩ := idx3 t
  funext j
  refine (congrFun (pay_br3 (iblk3 V c 0 t) (iblk3 V c 1 t)) j).trans ?_
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1 : Fin 128))
      = ix2 (0 : Fin 1) ((((cfg3.win 2).blk t).view.emb j) 1 : Fin 128) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  show hiddenRows (R := 10000) (K := 128) (iblk3 V c 0 t) (iblk3 V c 1 t) j
    = hiddenRows (R := 100000) (K := 128) (V c main_v61) (V c main_v62) (((cfg3.win 2).blk t).view.emb j)
  refine hiddenRows_at _ _ _ _ _ j ?_ ?_
  · show V c main_v61 (((cfg3.win 0).blk t).view.emb j) = V c main_v61 (((cfg3.win 2).blk t).view.emb j)
    exact congrArg _ h0
  · show V c main_v62 (((cfg3.win 1).blk t).view.emb (ix2 (0 : Fin 1) (j 1 : Fin 128)))
      = V c main_v62 (ix2 (0 : Fin 1) ((((cfg3.win 2).blk t).view.emb j) 1 : Fin 128))
    exact congrArg _ h1

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- Row `r` of the output lies in the block of point `r / 10000`. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  refine ⟨⟨(i 0).val / 10000, by omega⟩, flush3_2 _, ?_⟩
  rw [mem_blk3]
  obtain ⟨-, -, -, -, e20, e21⟩ := idx3 ⟨(i 0).val / 10000, by omega⟩
  intro a
  match a with
  | ⟨0, _⟩ =>
    show win3_2.index _ (0 : Fin 2) * 10000 ≤ (i 0).val ∧ (i 0).val < win3_2.index _ (0 : Fin 2) * 10000 + 10000
    rw [e20]; show (i 0).val / 10000 * 10000 ≤ (i 0).val ∧ (i 0).val < (i 0).val / 10000 * 10000 + 10000; omega
  | ⟨1, _⟩ =>
    show win3_2.index _ (1 : Fin 2) * 128 ≤ (i 1).val ∧ (i 1).val < win3_2.index _ (1 : Fin 2) * 128 + 128
    rw [e21]; omega

/-- After the launch the output array is the input array's rows plus the bias row, rectified, as the launch found them. -/
theorem arr3 (c : Dev nD) :
    (dat3 V c).arrAt 2 cfg3.N = hiddenRows (R := 100000) (K := 128) (V c main_v61) (V c main_v62) :=
  (dat3 V c).arrAt_eq_of_cover 2 _ (fun t _ => flushed3 V c t) fun i => cover3 i

end Cert.KernelIdeal.Whole

end
-- ==== Proof.Region4.lean ====
/-
  The fifth launch: h · W3, ten blocks of 10000 rows, one output column.

  Grid point t loads rows 10000·t … 10000·t + 9999 of the [100000,128] input and the whole [128,1] weight column, and
  writes rows 10000·t … of the output. Its body's value is the product of that block of rows with the weight, and rows
  of a product are products of rows, so what point t writes back is block t of the whole product. The ten blocks
  cover the output (row r lies in block r / 10000), so after the launch the output array IS the whole product
  `rowsTimes x W`, whatever the entry contents are.
-/
import proofs.«172430_j33784212750512_1_alg».proof.Proof.Gen.KernelIdeal.Frame
import proofs.«172430_j33784212750512_1_alg».proof.Proof.BlockFacts
import Idealize.ShloMosaic.Lib.Pipeline.Value
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Cert.Dense
open Idealize.ShloMosaic.Pipeline (Dat)

-- the TensorCore's buffer contents when the launch is entered: a parameter, whatever the host did before
variable (V : (c : Dev nD) → (b : Ref sig .tc) → Buf (Elt Ideal) ((c : Thread nD τ).loc b))

/-- The launch's block index maps, decided over its ten grid points: input rows and output rows move together with the
    point; the weight's one block stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product. -/
theorem flushed4 (c : Dev nD) (t : Fin cfg4.N) :
    (dat4 V c).flushed 2 t = ((cfg4.win 2).blk t).view.read (Elt Ideal)
      (rowsTimes (M := 100000) (K := 128) (N := 1) (V c main_v63) (V c main_arg7)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x1) hz]
  obtain ⟨e00, e01, e10, e11, e20, e21⟩ := idx4 t
  funext j
  refine (congrFun (pay_mm4 (iblk4 V c 0 t) (iblk4 V c 1 t)) j).trans ?_
  show rowsTimes (M := 10000) (K := 128) (N := 1) (iblk4 V c 0 t) (iblk4 V c 1 t) j
    = rowsTimes (M := 100000) (K := 128) (N := 1) (V c main_v63) (V c main_arg7) (((cfg4.win 2).blk t).view.emb j)
  refine rowsTimes_of_rows _ _ _ _ j _ (fun k => ?_) (fun k => ?_)
  · show V c main_v63 (((cfg4.win 0).blk t).view.emb (ix2 (j 0) k)) = V c main_v63 (ix2 ((((cfg4.win 2).blk t).view.emb j) 0) k)
    refine congrArg _ (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 128 + 1 * k.val = k.val; omega
  · show V c main_arg7 (((cfg4.win 1).blk t).view.emb (ix2 k (j 1))) = V c main_arg7 (ix2 k ((((cfg4.win 2).blk t).view.emb j) 1))
    refine congrArg _ (funext fun a => Fin.ext ?_)
    match a with
    | ⟨0, _⟩ => show win4_1.index t (0 : Fin 2) * 128 + 1 * k.val = k.val; omega
    | ⟨1, _⟩ => show win4_1.index t (1 : Fin 2) * 1 + 1 * (j 1).val = win4_2.index t (1 : Fin 2) * 1 + 1 * (j 1).val; omega

/-- An index of the output array is in point `t`'s block iff each coordinate is in the block's range on its axis. -/
theorem mem_blk4 (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v64).slice (win4_2.rect t)).set ↔ _
  rw [View.set_slice_whole, Rect.mem_set_unit]
  exact Iff.rfl

/-- Row `r` of the output lies in the block of point `r / 10000`. -/
theorem cover4 (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 10 := N_4
  refine ⟨⟨(i 0).val / 10000, by omega⟩, flush4_2 _, ?_⟩
  rw [mem_blk4]
  obtain ⟨-, -, -, -, e20, e21⟩ := idx4 ⟨(i 0).val / 10000, by omega⟩
  intro a
  match a with
  | ⟨0, _⟩ =>
    show win4_2.index _ (0 : Fin 2) * 10000 ≤ (i 0).val ∧ (i 0).val < win4_2.index _ (0 : Fin 2) * 10000 + 10000
    rw [e20]; show (i 0).val / 10000 * 10000 ≤ (i 0).val ∧ (i 0).val < (i 0).val / 10000 * 10000 + 10000; omega
  | ⟨1, _⟩ =>
    show win4_2.index _ (1 : Fin 2) * 1 ≤ (i 1).val ∧ (i 1).val < win4_2.index _ (1 : Fin 2) * 1 + 1
    rw [e21]; omega

/-- After the launch the output array is the whole product of the input array and the weight as the launch found them. -/
theorem arr4 (c : Dev nD) :
    (dat4 V c).arrAt 2 cfg4.N = rowsTimes (M := 100000) (K := 128) (N := 1) (V c main_v63) (V c main_arg7) :=
  (dat4 V c).arrAt_eq_of_cover 2 _ (fun t _ => flushed4 V c t) fun i => cover4 i

end Cert.KernelIdeal.Whole

end
-- ==== Proof.BoundaryC.lean ====
/-
  The segment boundaries, read back: the second layer's aggregation, its bias launch, and the third product.

  The same three steps as for the first layer, one layer on: the host aggregates the second product over the edges
  (the reference's operations, one for one, on the same product, sources, targets and weights); the fourth launch adds
  the second bias row and rectifies, which is the reference's second hidden layer; the fifth launch multiplies by the
  [128,1] weight column, which is the reference's third contraction.
-/
import proofs.«172430_j33784212750512_1_alg».proof.Proof.Gen.KernelIdeal.Frame
import proofs.«172430_j33784212750512_1_alg».proof.Proof.Keep
import proofs.«172430_j33784212750512_1_alg».proof.Proof.Region3
import proofs.«172430_j33784212750512_1_alg».proof.Proof.Region4
import proofs.«172430_j33784212750512_1_alg».proof.Proof.HostForms
import proofs.«172430_j33784212750512_1_alg».proof.Proof.BoundaryA
import proofs.«172430_j33784212750512_1_alg».proof.Proof.BoundaryB
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo Idealize.SL.Sem Cert.Dense
open Cert.ReferenceIdeal.ReadP

variable (m : (ℓ : Loc nD τ sig) → Buf (Elt Ideal) ℓ) (ρ : Dev nD → PrngReg)

/-! ## After the host operations between the third and the fourth launch -/

/-- The aggregated second product. The stage's definition is opened one operation at a time and the four operands are
    replaced by variables before the two sides are compared. -/
theorem W8_v61 (c : Dev nD) :
    W8 m ρ c (Proc.devRef .tc main_v61) = val_main_v63 (F := Ideal) (A0 m c) (A1 m c) (A3 m c) (A4 m c) (A5 m c) := by
  show StableHlo.after hostOps3 (W7 m ρ c) (Proc.devRef .tc main_v61) = _
  dsimp only [hostOps3]
  after_results_simp
  rw [W7_v48 m ρ c, W7_v7 m ρ c, W7_v8 m ρ c, W7_v31 m ρ c]
  simp only [val_main_v63, val_main_v62, val_main_v61, val_main_cst_11, val_main_v60, val_main_v59, val_main_v58, val_main_v57,
    val_main_v56, val_main_v55, val_main_v54, val_main_v53, val_main_c_10, val_main_v52, val_main_v51, val_main_c_9]
  generalize val_main_v50 (F := Ideal) (A0 m c) (A1 m c) (A3 m c) (A4 m c) (A5 m c) = h
  generalize val_main_v7 (F := Ideal) (A1 m c) = s
  generalize val_main_v8 (F := Ideal) (A1 m c) = d
  generalize val_main_v31 (F := Ideal) (A1 m c) = w
  rfl

/-- The second bias vector kept as a [1,128] row. -/
theorem W8_v62 (c : Dev nD) : W8 m ρ c (Proc.devRef .tc main_v62) = shapeCast S1x128 (A6 m c) shapeCasts_S128_S1x128 := by
  show StableHlo.after hostOps3 (W7 m ρ c) (Proc.devRef .tc main_v62) = _
  dsimp only [hostOps3]
  after_results_simp
  rw [W7_as_launched m ρ c (b := main_arg6) (by decide) (by decide) (by decide) (by decide) (by decide) (by decide) (by decide)]
  rfl

/-! ## After the fourth launch -/

/-- Rows plus the second bias row, rectified: the reference's second hidden layer. -/
theorem W9_v63 (c : Dev nD) :
    W9 m ρ c (Proc.devRef .tc main_v63) = val_main_v67 (F := Ideal) (A0 m c) (A1 m c) (A3 m c) (A4 m c) (A5 m c) (A6 m c) := by
  refine (W9_arr m ρ c 2).trans ?_
  refine (arr3 (V8 m ρ) c).trans ?_
  show hiddenRows (R := 100000) (K := 128) (W8 m ρ c (Proc.devRef .tc main_v61)) (W8 m ρ c (Proc.devRef .tc main_v62)) = _
  rw [W8_v61 m ρ c, W8_v62 m ρ c]
  exact hidden2_stage _ _ _ _ _ _

/-- The third weight is as launched when the fifth launch reads it. -/
theorem W9_arg7 (c : Dev nD) : W9 m ρ c (Proc.devRef .tc main_arg7) = A7 m c :=
  (carry_7_9 m ρ c (b := main_arg7) (by decide) (by decide)).trans
    (W7_as_launched m ρ c (b := main_arg7) (by decide) (by decide) (by decide) (by decide) (by decide) (by decide) (by decide))

/-! ## After the fifth launch -/

/-- The second hidden layer times W3: the reference's third contraction. -/
theorem W10_v64 (c : Dev nD) :
    W10 m ρ c (Proc.devRef .tc main_v64)
      = val_main_v68 (F := Ideal) (A0 m c) (A1 m c) (A3 m c) (A4 m c) (A5 m c) (A6 m c) (A7 m c) := by
  refine (W10_arr m ρ c 2).trans ?_
  refine (arr4 (V9 m ρ) c).trans ?_
  show rowsTimes (M := 100000) (K := 128) (N := 1) (W9 m ρ c (Proc.devRef .tc main_v63)) (W9 m ρ c (Proc.devRef .tc main_arg7)) = _
  rw [W9_v63 m ρ c, W9_arg7 m ρ c]
  exact product3_stage _ _ _ _ _ _ _

/-- The edge sources, the edge targets, the edge weights and the saved input column, carried to the fifth launch's exit. -/
theorem W10_v7 (c : Dev nD) : W10 m ρ c (Proc.devRef .tc main_v7) = val_main_v7 (F := Ideal) (A1 m c) :=
  (carry_7_10 m ρ c (b := main_v7) (by decide) (by decide) (by decide)).trans (W7_v7 m ρ c)
theorem W10_v8 (c : Dev nD) : W10 m ρ c (Proc.devRef .tc main_v8) = val_main_v8 (F := Ideal) (A1 m c) :=
  (carry_7_10 m ρ c (b := main_v8) (by decide) (by decide) (by decide)).trans (W7_v8 m ρ c)
theorem W10_v31 (c : Dev nD) : W10 m ρ c (Proc.devRef .tc main_v31) = val_main_v31 (F := Ideal) (A1 m c) :=
  (carry_7_10 m ρ c (b := main_v31) (by decide) (by decide) (by decide)).trans (W7_v31 m ρ c)
theorem W10_v1 (c : Dev nD) : W10 m ρ c (Proc.devRef .tc main_v1) = val_main_v1 (F := Ideal) (A0 m c) :=
  (carry_7_10 m ρ c (b := main_v1) (by decide) (by decide) (by decide)).trans (W7_v1 m ρ c)

/-- The last bias is as launched when the host reshapes it after the fifth launch. -/
theorem W10_arg8 (c : Dev nD) : W10 m ρ c (Proc.devRef .tc main_arg8) = A8 m c :=
  (carry_7_10 m ρ c (b := main_arg8) (by decide) (by decide) (by decide)).trans
    (W7_as_launched m ρ c (b := main_arg8) (by decide) (by decide) (by decide) (by decide) (by decide) (by decide) (by decide))

end Cert.KernelIdeal.Whole

end
-- ==== Proof.BoundaryD.lean ====
/-
  The segment boundaries, read back: the third layer's aggregation, its bias launch, the reshapes, the last launch — and the result.

  The host aggregates the third product (one column) over the edges, the sixth launch adds the one-entry bias and
  rectifies: the reference's third hidden layer, a [100000,1] column. The host reshapes it, and the input column saved
  at the start, to [8,12500]; the seventh launch adds the two. The reference reshapes the same two arrays and adds
  them: so the result buffer, at the last boundary, holds the reference's result stage of the launch arguments.
-/
import proofs.«172430_j33784212750512_1_alg».proof.Proof.Gen.KernelIdeal.Frame
import proofs.«172430_j33784212750512_1_alg».proof.Proof.Keep
import proofs.«172430_j33784212750512_1_alg».proof.Proof.Region5
import proofs.«172430_j33784212750512_1_alg».proof.Proof.Region6
import proofs.«172430_j33784212750512_1_alg».proof.Proof.HostForms
import proofs.«172430_j33784212750512_1_alg».proof.Proof.BoundaryA
import proofs.«172430_j33784212750512_1_alg».proof.Proof.BoundaryB
import proofs.«172430_j33784212750512_1_alg».proof.Proof.BoundaryC
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo Idealize.SL.Sem Cert.Dense
open Cert.ReferenceIdeal.ReadP

variable (m : (ℓ : Loc nD τ sig) → Buf (Elt Ideal) ℓ) (ρ : Dev nD → PrngReg)

/-! ## After the host operations between the fifth and the sixth launch -/

/-- The aggregated third product. The stage's definition is opened one operation at a time and the four operands are
    replaced by variables before the two sides are compared. -/
theorem W11_v76 (c : Dev nD) :
    W11 m ρ c (Proc.devRef .tc main_v76)
      = val_main_v80 (F := Ideal) (A0 m c) (A1 m c) (A3 m c) (A4 m c) (A5 m c) (A6 m c) (A7 m c) := by
  show StableHlo.after hostOps5 (W10 m ρ c) (Proc.devRef .tc main_v76) = _
  dsimp only [hostOps5]
  after_results_simp
  rw [W10_v64 m ρ c, W10_v7 m ρ c, W10_v8 m ρ c, W10_v31 m ρ c]
  simp only [val_main_v80, val_main_v79, val_main_v78, val_main_cst_14, val_main_v77, val_main_v76, val_main_v75, val_main_v74,
    val_main_v73, val_main_v72, val_main_v71, val_main_c_13, val_main_v70, val_main_v69, val_main_c_12]
  generalize val_main_v68 (F := Ideal) (A0 m c) (A1 m c) (A3 m c) (A4 m c) (A5 m c) (A6 m c) (A7 m c) = h
  generalize val_main_v7 (F := Ideal) (A1 m c) = s
  generalize val_main_v8 (F := Ideal) (A1 m c) = d
  generalize val_main_v31 (F := Ideal) (A1 m c) = w
  rfl

/-- The last bias kept as a [1,1] array. -/
theorem W11_v77 (c : Dev nD) : W11 m ρ c (Proc.devRef .tc main_v77) = shapeCast S1x1 (A8 m c) shapeCasts_S1_S1x1 := by
  show StableHlo.after hostOps5 (W10 m ρ c) (Proc.devRef .tc main_v77) = _
  dsimp only [hostOps5]
  after_results_simp
  rw [W10_arg8 m ρ c]
  rfl

/-! ## After the sixth launch -/

/-- The column plus the bias, rectified: the reference's third hidden layer. -/
theorem W12_v78 (c : Dev nD) :
    W12 m ρ c (Proc.devRef .tc main_v78)
      = val_main_v84 (F := Ideal) (A0 m c) (A1 m c) (A3 m c) (A4 m c) (A5 m c) (A6 m c) (A7 m c) (A8 m c) := by
  refine (W12_arr m ρ c 2).trans ?_
  refine (arr5 (V11 m ρ) c).trans ?_
  show hiddenRows (R := 100000) (K := 1) (W11 m ρ c (Proc.devRef .tc main_v76)) (W11 m ρ c (Proc.devRef .tc main_v77)) = _
  rw [W11_v76 m ρ c, W11_v77 m ρ c]
  exact hidden3_stage _ _ _ _ _ _ _ _

/-- The saved input column is still there. -/
theorem W12_v1 (c : Dev nD) : W12 m ρ c (Proc.devRef .tc main_v1) = val_main_v1 (F := Ideal) (A0 m c) :=
  (carry_10_12 m ρ c (b := main_v1) (by decide) (by decide)).trans (W10_v1 m ρ c)

/-! ## After the two reshapes, and after the last launch -/

/-- The third hidden layer as an [8,12500] array. -/
theorem W13_v79 (c : Dev nD) :
    W13 m ρ c (Proc.devRef .tc main_v79)
      = shapeCast S8x12500 (val_main_v84 (F := Ideal) (A0 m c) (A1 m c) (A3 m c) (A4 m c) (A5 m c) (A6 m c) (A7 m c) (A8 m c))
          shapeCasts_S100000x1_S8x12500 := by
  show StableHlo.after hostOps6 (W12 m ρ c) (Proc.devRef .tc main_v79) = _
  dsimp only [hostOps6]
  after_results_simp
  rw [W12_v78 m ρ c]
  rfl

/-- The saved input column as an [8,12500] array. -/
theorem W13_v80 (c : Dev nD) :
    W13 m ρ c (Proc.devRef .tc main_v80) = shapeCast S8x12500 (val_main_v1 (F := Ideal) (A0 m c)) shapeCasts_S100000_S8x12500 := by
  show StableHlo.after hostOps6 (W12 m ρ c) (Proc.devRef .tc main_v80) = _
  dsimp only [hostOps6]
  after_results_simp
  rw [W12_v1 m ρ c]
  rfl

/-- THE RESULT: at the last boundary the result buffer holds the reference's result stage of the launch arguments. -/
theorem result_eq (c : Dev nD) :
    W14 m ρ c (Proc.devRef .tc main_v81)
      = val_main_v87 (F := Ideal) (A0 m c) (A1 m c) (A3 m c) (A4 m c) (A5 m c) (A6 m c) (A7 m c) (A8 m c) := by
  refine (W14_arr m ρ c 2).trans ?_
  refine (arr6 (V13 m ρ) c).trans ?_
  show sumRows (S := S8x12500) (W13 m ρ c (Proc.devRef .tc main_v79)) (W13 m ρ c (Proc.devRef .tc main_v80)) = _
  rw [W13_v79 m ρ c, W13_v80 m ρ c]
  exact sum_stage _ _ _ _ _ _ _ _

end Cert.KernelIdeal.Whole

end
-- ==== Proof.lean ====
/-
  A three-layer graph convolution on 100000 nodes and 1.6 million edges, with its dense steps on the TensorCore,
  against the same network written with host operations only.

  Both programs first build, from the edge list, the sources s and targets d with one self-loop per node appended, the
  degrees (a scatter-add of ones at d), their inverse square roots (zero where the degree is not positive), and the edge
  weights w = dinv[s] · dinv[d]; and they keep the last input column for the end. A layer is then

      h ↦ relu ( scatter-add over d of ( (h · W)[s] · w )  +  b ),

  three times, with weights [128,128], [128,128], [128,1]; the result is the last layer's column and the saved input
  column, both reshaped to [8,12500], added.

  The kernel computes h · W in ten blocks of 10000 rows (operands rounded to bf16, accumulated in f32 from zero), the
  bias-and-relu step in ten blocks of rows against a bias kept as a one-row array, and the last sum in one block; the
  gathers, the scaling and the scatter-adds between them are host operations — the reference's, one for one. On the
  extended reals a change of float format is the identity, a product into a zero accumulator is the entrywise sum
  ∑ₖ x(r,k)·W(k,j), and rows of a product are products of rows; the bias step acts on each row by itself. So after each
  launch the output array is the reference's stage of the launch arguments (Region0 … Region6, HostForms), and the
  buffers at every boundary between @main's fourteen segments, read back in order (BoundaryA … BoundaryD), end with the
  result buffer at the reference's result stage. No law of arithmetic beyond reindexing a finite sum by an equivalence
  is used, and nothing needs the inputs to be finite: the two results are the same expression at every index.

  The claim's conjuncts: the three frames are the generated frame certificates (the kernel's, at both instances) and the
  reference's run with its result dropped; the idealization rewrote nothing, so `preserves` is `True`; `algebraic` is
  the kernel's run with its result named (KernelRun) beside the reference's run, the two results one function
  (BoundaryD's `result_eq`) of arguments that agree.
-/
import proofs.«172430_j33784212750512_1_alg».proof.Defs
import proofs.«172430_j33784212750512_1_alg».proof.Proof.Gen.Kernel
import proofs.«172430_j33784212750512_1_alg».proof.Proof.Gen.Kernel.Skeleton
import proofs.«172430_j33784212750512_1_alg».proof.Proof.Gen.Kernel.Launch
import proofs.«172430_j33784212750512_1_alg».proof.Proof.Gen.Kernel.Points
import proofs.«172430_j33784212750512_1_alg».proof.Proof.Gen.Kernel.Frame
import proofs.«172430_j33784212750512_1_alg».proof.Proof.Gen.KernelIdeal
import proofs.«172430_j33784212750512_1_alg».proof.Proof.Gen.KernelIdeal.Skeleton
import proofs.«172430_j33784212750512_1_alg».proof.Proof.Gen.KernelIdeal.Launch
import proofs.«172430_j33784212750512_1_alg».proof.Proof.Gen.KernelIdeal.Points
import proofs.«172430_j33784212750512_1_alg».proof.Proof.Gen.KernelIdeal.Frame
import proofs.«172430_j33784212750512_1_alg».proof.Proof.Gen.ReferenceIdeal
import proofs.«172430_j33784212750512_1_alg».proof.Proof.Gen.Pre_finite_inputs
import proofs.«172430_j33784212750512_1_alg».proof.Proof.RefRunP
import proofs.«172430_j33784212750512_1_alg».proof.Proof.RefReadP
import proofs.«172430_j33784212750512_1_alg».proof.Proof.KernelRun
import proofs.«172430_j33784212750512_1_alg».proof.Proof.BoundaryD
import Idealize.ShloMosaic.Adequacy
import Idealize.ShloMosaic.Init

noncomputable section

namespace Cert.Proof

open Idealize.ShloMosaic Idealize.ShloMosaic.TcCoe Idealize.SL.Sem

/-- The kernel as printed runs, and its argument arrays end unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs, and its argument arrays end unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals, from memories that agree on the arguments, both programs run and end with equal results:
    the kernel's result buffer ends at the reference's result stage of the kernel's arguments, the reference's at that
    stage of its own arguments, and the arguments agree. -/
theorem algebraic : Cert.algebraic_KernelIdeal_ReferenceIdeal := by
  intro m ρ m' ρ' _ hagree
  refine ⟨fun c => Cert.KernelIdeal.Gen.W14 m ρ c (Proc.devRef .tc Cert.KernelIdeal.main_v81),
    Cert.KernelIdeal.Whole.run_result m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v87 m' c
    = Cert.KernelIdeal.Gen.W14 m ρ c (Proc.devRef .tc Cert.KernelIdeal.main_v81)
  obtain ⟨e0, e1, -, e3, e4, e5, e6, e7, e8⟩ := hagree c
  rw [Cert.ReferenceIdeal.ReadP.val_main_v87_eq, Cert.KernelIdeal.Whole.result_eq m ρ c, e0, e1, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
